-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x11 : Shape := ⟨2, ![50000, 11]⟩
abbrev S2x300000 : Shape := ⟨2, ![2, 300000]⟩
abbrev S11x256 : Shape := ⟨2, ![11, 256]⟩
abbrev S256 : Shape := ⟨1, ![256]⟩
abbrev S256x256 : Shape := ⟨2, ![256, 256]⟩
abbrev S_ : Shape := ⟨0, ![]⟩

class Facts : Prop where
  bcast_S_S50000x11 : S_.BroadcastsInDim S50000x11 (![] : Fin 0 → Fin S50000x11.rank)
  reducesTo_S50000x11_S_d0_1 : S50000x11.ReducesTo [0, 1] S_
  h_S_ : 0 < S_.numel
  bcast_S_S11x256 : S_.BroadcastsInDim S11x256 (![] : Fin 0 → Fin S11x256.rank)
  reducesTo_S11x256_S_d0_1 : S11x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_arg5 : FVec F S256 .f32) (main_arg6 : FVec F S256x256 .f32) (main_arg7 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S50000x11 .f32) (main_arg1 : IVec S2x300000 32) (main_arg2 : FVec F S11x256 .f32) (main_arg3 : FVec F S256 .f32) (main_arg4 : FVec F S256x256 .f32) (main_arg5 : FVec F S256 .f32) (main_arg6 : FVec F S256x256 .f32) (main_arg7 : FVec F S256 .f32) : IVec S_ 1 :=
  let main_v0 : FVec F S50000x11 .f32 := Host.absf main_arg0
  let main_cst : FVec F S_ .f32 := constant S_ .f32 0x7F800000#32
  let main_v1 : FVec F S50000x11 .f32 := broadcastInDim S50000x11 ![] bcast_S_S50000x11 main_cst
  let main_v2 : IVec S50000x11 1 := cmpf .olt main_v0 main_v1
  let main_c : IVec S_ 1 := constantI S_ 1 1#1
  let main_v3 : IVec S_ 1 := (fun x v => Host.reduce IntOp.andi x v reducesTo_S50000x11_S_d0_1 h_S_) main_v2 main_c
  let main_v4 : FVec F S11x256 .f32 := Host.absf main_arg2
  let main_cst_0 : FVec F S_ .f32 := constant S_ .f32 0x7F800000#32
  let main_v5 : FVec F S11x256 .f32 := broadcastInDim S11x256 ![] bcast_S_S11x256 main_cst_0
  let main_v6 : IVec S11x256 1 := cmpf .olt main_v4 main_v5
  let main_c_1 : IVec S_ 1 := constantI S_ 1 1#1
  let main_v7 : IVec S_ 1 := (fun x v => Host.reduce IntOp.andi x v reducesTo_S11x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_v13 main_v16
-- ==== Kernel.lean ====
abbrev S50000x11 : Shape := ⟨2, ![50000, 11]⟩
abbrev S2x300000 : Shape := ⟨2, ![2, 300000]⟩
abbrev S11x256 : Shape := ⟨2, ![11, 256]⟩
abbrev S256 : Shape := ⟨1, ![256]⟩
abbrev S256x256 : Shape := ⟨2, ![256, 256]⟩
abbrev S50000 : Shape := ⟨1, ![50000]⟩
abbrev S1x300000 : Shape := ⟨2, ![1, 300000]⟩
abbrev S300000 : Shape := ⟨1, ![300000]⟩
abbrev S350000 : Shape := ⟨1, ![350000]⟩
abbrev S_ : Shape := ⟨0, ![]⟩
abbrev S350000x1 : Shape := ⟨2, ![350000, 1]⟩
abbrev S1x256 : Shape := ⟨2, ![1, 256]⟩
abbrev S50000x256 : Shape := ⟨2, ![50000, 256]⟩
abbrev S5000x11 : Shape := ⟨2, ![5000, 11]⟩
abbrev S5000x256 : Shape := ⟨2, ![5000, 256]⟩
abbrev S350000x256 : Shape := ⟨2, ![350000, 256]⟩

abbrev nBuf : Space → Nat
  | .hbm => 115
  | .vmem => 16
  | .smem => 0
  | _ => 0

abbrev bufTy : (tb : Table) → Fin (tcTables nBuf tb) → BufTy
  | .hbm, ⟨0, _⟩ => ⟨S50000x11, .f32⟩
  | .hbm, ⟨1, _⟩ => ⟨S2x300000, .i32⟩
  | .hbm, ⟨2, _⟩ => ⟨S11x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S50000, .i32⟩
  | .hbm, ⟨9, _⟩ => ⟨S1x300000, .i32⟩
  | .hbm, ⟨10, _⟩ => ⟨S300000, .i32⟩
  | .hbm, ⟨11, _⟩ => ⟨S350000, .i32⟩
  | .hbm, ⟨12, _⟩ => ⟨S1x300000, .i32⟩
  | .hbm, ⟨13, _⟩ => ⟨S300000, .i32⟩
  | .hbm, ⟨14, _⟩ => ⟨S350000, .i32⟩
  | .hbm, ⟨15, _⟩ => ⟨S_, .f32⟩
  | .hbm, ⟨16, _⟩ => ⟨S350000, .f32⟩
  | .hbm, ⟨17, _⟩ => ⟨S_, .f32⟩
  | .hbm, ⟨18, _⟩ => ⟨S50000, .f32⟩
  | .hbm, ⟨19, _⟩ => ⟨S350000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S1x256, .f32⟩
  | .hbm, ⟨33, _⟩ => ⟨S50000x256, .f32⟩
  | .hbm, ⟨34, _⟩ => ⟨S50000x256, .f32⟩
  | .hbm, ⟨35, _⟩ => ⟨S_, .i32⟩
  | .hbm, ⟨36, _⟩ => ⟨S350000, .i32⟩
  | .hbm, ⟨37, _⟩ => ⟨S350000, .i1⟩
  | .hbm, ⟨38, _⟩ => ⟨S_, .i32⟩
  | .hbm, ⟨39, _⟩ => ⟨S350000, .i32⟩
  | .hbm, ⟨40, _⟩ => ⟨S350000, .i32⟩
  | .hbm, ⟨41, _⟩ => ⟨S350000, .i32⟩
  | .hbm, ⟨42, _⟩ => ⟨S350000x1, .i32⟩
  | .hbm, ⟨43, _⟩ => ⟨S350000, .f32⟩
  | .hbm, ⟨44, _⟩ => ⟨S_, .i32⟩
  | .hbm, ⟨45, _⟩ => ⟨S350000, .i32⟩
  | .hbm, ⟨46, _⟩ => ⟨S350000, .i1⟩
  | .hbm, ⟨47, _⟩ => ⟨S_, .i32⟩
  | .hbm, ⟨48, _⟩ => ⟨S350000, .i32⟩
  | .hbm, ⟨49, _⟩ => ⟨S350000, .i32⟩
  | .hbm, ⟨50, _⟩ => ⟨S350000, .i32⟩
  | .hbm, ⟨51, _⟩ => ⟨S350000x1, .i32⟩
  | .hbm, ⟨52, _⟩ => ⟨S350000, .f32⟩
  | .hbm, ⟨53, _⟩ => ⟨S350000, .f32⟩
  | .hbm, ⟨54, _⟩ => ⟨S_, .i32⟩
  | .hbm, ⟨55, _⟩ => ⟨S350000, .i32⟩
  | .hbm, ⟨56, _⟩ => ⟨S350000, .i1⟩
  | .hbm, ⟨57, _⟩ => ⟨S_, .i32⟩
  | .hbm, ⟨58, _⟩ => ⟨S350000, .i32⟩
  | .hbm, ⟨59, _⟩ => ⟨S350000, .i32⟩
  | .hbm, ⟨60, _⟩ => ⟨S350000, .i32⟩
  | .hbm, ⟨61, _⟩ => ⟨S350000x1, .i32⟩
  | .hbm, ⟨62, _⟩ => ⟨S350000x256, .f32⟩
  | .hbm, ⟨63, _⟩ => ⟨S350000x1, .f32⟩
  | .hbm, ⟨64, _⟩ => ⟨S350000x256, .f32⟩
  | .hbm, ⟨65, _⟩ => ⟨S350000x256, .f32⟩
  | .hbm, ⟨66, _⟩ => ⟨S_, .f32⟩
  | .hbm, ⟨67, _⟩ => ⟨S50000x256, .f32⟩
  | .hbm, ⟨68, _⟩ => ⟨S350000x1, .i32⟩
  | .hbm, ⟨69, _⟩ => ⟨S50000x256, .f32⟩
  | .hbm, ⟨70, _⟩ => ⟨S1x256, .f32⟩
  | .hbm, ⟨71, _⟩ => ⟨S50000x256, .f32⟩
  | .hbm, ⟨72, _⟩ => ⟨S50000x256, .f32⟩
  | .hbm, ⟨73, _⟩ => ⟨S_, .f32⟩
  | .hbm, ⟨74, _⟩ => ⟨S50000x256, .f32⟩
  | .hbm, ⟨75, _⟩ => ⟨S50000x256, .f32⟩
  | .hbm, ⟨76, _⟩ => ⟨S50000x256, .f32⟩
  | .hbm, ⟨77, _⟩ => ⟨S_, .i32⟩
  | .hbm, ⟨78, _⟩ => ⟨S350000, .i32⟩
  | .hbm, ⟨79, _⟩ => ⟨S350000, .i1⟩
  | .hbm, ⟨80, _⟩ => ⟨S_, .i32⟩
  | .hbm, ⟨81, _⟩ => ⟨S350000, .i32⟩
  | .hbm, ⟨82, _⟩ => ⟨S350000, .i32⟩
  | .hbm, ⟨83, _⟩ => ⟨S350000, .i32⟩
  | .hbm, ⟨84, _⟩ => ⟨S350000x1, .i32⟩
  | .hbm, ⟨85, _⟩ => ⟨S350000, .f32⟩
  | .hbm, ⟨86, _⟩ => ⟨S_, .i32⟩
  | .hbm, ⟨87, _⟩ => ⟨S350000, .i32⟩
  | .hbm, ⟨88, _⟩ => ⟨S350000, .i1⟩
  | .hbm, ⟨89, _⟩ => ⟨S_, .i32⟩
  | .hbm, ⟨90, _⟩ => ⟨S350000, .i32⟩
  | .hbm, ⟨91, _⟩ => ⟨S350000, .i32⟩
  | .hbm, ⟨92, _⟩ => ⟨S350000, .i32⟩
  | .hbm, ⟨93, _⟩ => ⟨S350000x1, .i32⟩
  | .hbm, ⟨94, _⟩ => ⟨S350000, .f32⟩
  | .hbm, ⟨95, _⟩ => ⟨S350000, .f32⟩
  | .hbm, ⟨96, _⟩ => ⟨S_, .i32⟩
  | .hbm, ⟨97, _⟩ => ⟨S350000, .i32⟩
  | .hbm, ⟨98, _⟩ => ⟨S350000, .i1⟩
  | .hbm, ⟨99, _⟩ => ⟨S_, .i32⟩
  | .hbm, ⟨100, _⟩ => ⟨S350000, .i32⟩
  | .hbm, ⟨101, _⟩ => ⟨S350000, .i32⟩
  | .hbm, ⟨102, _⟩ => ⟨S350000, .i32⟩
  | .hbm, ⟨103, _⟩ => ⟨S350000x1, .i32⟩
  | .hbm, ⟨104, _⟩ => ⟨S350000x256, .f32⟩
  | .hbm, ⟨105, _⟩ => ⟨S350000x1, .f32⟩
  | .hbm, ⟨106, _⟩ => ⟨S350000x256, .f32⟩
  | .hbm, ⟨107, _⟩ => ⟨S350000x256, .f32⟩
  | .hbm, ⟨108, _⟩ => ⟨S_, .f32⟩
  | .hbm, ⟨109, _⟩ => ⟨S50000x256, .f32⟩
  | .hbm, ⟨110, _⟩ => ⟨S350000x1, .i32⟩
  | .hbm, ⟨111, _⟩ => ⟨S50000x256, .f32⟩
  | .hbm, ⟨112, _⟩ => ⟨S1x256, .f32⟩
  | .hbm, ⟨113, _⟩ => ⟨S50000x256, .f32⟩
  | .hbm, ⟨114, _⟩ => ⟨S50000x256, .f32⟩
  | .local _ .vmem, ⟨0, _⟩ => ⟨S5000x11, .f32⟩
  | .local _ .vmem, ⟨1, _⟩ => ⟨S5000x11, .f32⟩
  | .local _ .vmem, ⟨2, _⟩ => ⟨S11x256, .f32⟩
  | .local _ .vmem, ⟨3, _⟩ => ⟨S1x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S5000x256, .f32⟩
  | .local _ .vmem, ⟨8, _⟩ => ⟨S256x256, .f32⟩
  | .local _ .vmem, ⟨9, _⟩ => ⟨S5000x256, .f32⟩
  | .local _ .vmem, ⟨10, _⟩ => ⟨S5000x256, .f32⟩
  | .local _ .vmem, ⟨11, _⟩ => ⟨S5000x256, .f32⟩
  | .local _ .vmem, ⟨12, _⟩ => ⟨S5000x256, .f32⟩
  | .local _ .vmem, ⟨13, _⟩ => ⟨S256x256, .f32⟩
  | .local _ .vmem, ⟨14, _⟩ => ⟨S5000x256, .f32⟩
  | .local _ .vmem, ⟨15, _⟩ => ⟨S5000x256, .f32⟩
  | _, _ => ⟨S50000x11, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_7 : Ref sig .tc := ⟨.hbm, 54, rfl⟩
abbrev main_v35 : Ref sig .tc := ⟨.hbm, 55, rfl⟩
abbrev main_v36 : Ref sig .tc := ⟨.hbm, 56, rfl⟩
abbrev main_c_8 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_9 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_call1_cst : Ref sig .tc := ⟨.hbm, 73, rfl⟩
abbrev main_call1_v0 : Ref sig .tc := ⟨.hbm, 74, rfl⟩
abbrev main_v51 : Ref sig .tc := ⟨.hbm, 75, rfl⟩
abbrev main_v52 : Ref sig .tc := ⟨.hbm, 76, rfl⟩
abbrev main_c_10 : Ref sig .tc := ⟨.hbm, 77, rfl⟩
abbrev main_v53 : Ref sig .tc := ⟨.hbm, 78, rfl⟩
abbrev main_v54 : Ref sig .tc := ⟨.hbm, 79, rfl⟩
abbrev main_c_11 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_c_12 : Ref sig .tc := ⟨.hbm, 86, rfl⟩
abbrev main_v60 : Ref sig .tc := ⟨.hbm, 87, rfl⟩
abbrev main_v61 : Ref sig .tc := ⟨.hbm, 88, rfl⟩
abbrev main_c_13 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_c_14 : Ref sig .tc := ⟨.hbm, 96, rfl⟩
abbrev main_v68 : Ref sig .tc := ⟨.hbm, 97, rfl⟩
abbrev main_v69 : Ref sig .tc := ⟨.hbm, 98, rfl⟩
abbrev main_c_15 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_16 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x11 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S11x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x300000_S1x300000_0_0 : S2x300000.Slices ![0, 0] S1x300000
  shapeCasts_S1x300000_S300000 : S1x300000.ShapeCasts S300000
  concatenates_S300000_S50000_S350000_d0 : Shape.Concatenates [S300000, S50000] S350000 0
  slices_S2x300000_S1x300000_1_0 : S2x300000.Slices ![1, 0] S1x300000
  bcast_S_S350000 : S_.BroadcastsInDim S350000 (![] : Fin 0 → Fin S350000.rank)
  bcast_S_S50000 : S_.BroadcastsInDim S50000 (![] : Fin 0 → Fin S50000.rank)
  bcast_S350000_S350000x1_0 : S350000.BroadcastsInDim S350000x1 (![0] : Fin 1 → Fin S350000x1.rank)
  shapeCasts_S256_S1x256 : S256.ShapeCasts S1x256
  inb_S5000x11_S5000x11_0_0 : ∀ a, (![0, 0] : Fin 2 → Nat) a + S5000x11.size a ≤ S5000x11.size a
  h_S5000x11 : 0 < S5000x11.numel
  bitsLt_bf16_f32 : FTy.bits .bf16 < FTy.bits .f32
  inb_S11x256_S11x256_0_0 : ∀ a, (![0, 0] : Fin 2 → Nat) a + S11x256.size a ≤ S11x256.size a
  h_S11x256 : 0 < S11x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S256x256_S256x256_0_0 : ∀ a, (![0, 0] : Fin 2 → Nat) a + S256x256.size a ≤ S256x256.size a
  h_S256x256 : 0 < S256x256.numel
  bcast_S350000x1_S350000x256_0_1 : S350000x1.BroadcastsInDim S350000x256 (![0, 1] : Fin 2 → Fin S350000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  scatter_S50000_S350000x1_S350000_n_0_0_1_wf : ScatterDims.WF S50000 S350000x1 S350000 [] [0] [0] 1
  dot_S5000x11_S11x256_S5000x256_1_0_0_1_n_n_wf : DotDims.WF S5000x11 S11x256 S5000x256 [1] [0] [0] [1] [] []
  dot_S5000x256_S256x256_S5000x256_1_0_0_1_n_n_wf : DotDims.WF S5000x256 S256x256 S5000x256 [1] [0] [0] [1] [] []
  gather_S50000_S350000x1_S350000_n_0_n_n_0_1_1_wf : GatherDims.WF S50000 S350000x1 S350000 [] [0] [] [0] [] 1 ![1]
  gather_S50000x256_S350000x1_S350000x256_1_0_n_n_0_1_1256_wf : GatherDims.WF S50000x256 S350000x1 S350000x256 [1] [0] [] [0] [] 1 ![1, 256]
  scatter_S50000x256_S350000x1_S350000x256_1_0_0_1_wf : ScatterDims.WF S50000x256 S350000x1 S350000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x11.size a ≤ S50000x11.size a
  hwx0_0 : ∀ i : grid0.Coords, EltTy.bits .f32 = 32 ∨ (Rect.block (s := S50000x11) S5000x11.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S11x256.size a ≤ S11x256.size a
  hwx0_1 : ∀ i : grid0.Coords, EltTy.bits .f32 = 32 ∨ (Rect.block (s := S11x256) S11x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S50000x256.size a
  hwx0_3 : ∀ i : grid0.Coords, EltTy.bits .f32 = 32 ∨ (Rect.block (s := S50000x256) S5000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x256.size a ≤ S50000x256.size a
  hwx1_2 : ∀ i : grid1.Coords, EltTy.bits .f32 = 32 ∨ (Rect.block (s := S50000x256) S5000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x256.size a ≤ S50000x256.size a
  hwx2_2 : ∀ i : grid2.Coords, EltTy.bits .f32 = 32 ∨ (Rect.block (s := S50000x256) S5000x256.size (cc2_transform_2 i) (hinb2_2 i)).WholeWords (EltTy.packing .f32)

variable [Facts₀]

def scatter_S50000_S350000x1_S350000_n_0_0_1 : ScatterDims S50000 S350000x1 S350000 where
  updateWindowDims := []
  insertedWindowDims := [0]
  scatterDimsToOperandDims := [0]
  indexVectorDim := 1
  wf := scatter_S50000_S350000x1_S350000_n_0_0_1_wf
def dot_S5000x11_S11x256_S5000x256_1_0_0_1_n_n : DotDims S5000x11 S11x256 S5000x256 where
  lhsContracting := [1]
  rhsContracting := [0]
  lhsNonContracting := [0]
  rhsNonContracting := [1]
  lhsBatch := []
  rhsBatch := []
  wf := dot_S5000x11_S11x256_S5000x256_1_0_0_1_n_n_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def gather_S50000_S350000x1_S350000_n_0_n_n_0_1_1 : GatherDims S50000 S350000x1 S350000 where
  offsetDims := []
  collapsedSliceDims := [0]
  operandBatchingDims := []
  startIndicesBatchingDims := []
  startIndexMap := [0]
  indexVectorDim := 1
  sliceSizes := ![1]
  wf := gather_S50000_S350000x1_S350000_n_0_n_n_0_1_1_wf
def gather_S50000x256_S350000x1_S350000x256_1_0_n_n_0_1_1256 : GatherDims S50000x256 S350000x1 S350000x256 where
  offsetDims := [1]
  collapsedSliceDims := [0]
  operandBatchingDims := []
  startIndicesBatchingDims := []
  startIndexMap := [0]
  indexVectorDim := 1
  sliceSizes := ![1, 256]
  wf := gather_S50000x256_S350000x1_S350000x256_1_0_n_n_0_1_1256_wf
def scatter_S50000x256_S350000x1_S350000x256_1_0_0_1 : ScatterDims S50000x256 S350000x1 S350000x256 where
  updateWindowDims := [1]
  insertedWindowDims := [0]
  scatterDimsToOperandDims := [0]
  indexVectorDim := 1
  wf := scatter_S50000x256_S350000x1_S350000x256_1_0_0_1_wf

abbrev win0_0 : Pipeline.Window sig grid0 :=
  Pipeline.Window.ofSpec (Memref.whole main_arg0) S5000x11.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S11x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v18) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v19) S5000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v51) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v52) S5000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x11 : Shape := ⟨2, ![50000, 11]⟩
abbrev S2x300000 : Shape := ⟨2, ![2, 300000]⟩
abbrev S11x256 : Shape := ⟨2, ![11, 256]⟩
abbrev S256 : Shape := ⟨1, ![256]⟩
abbrev S256x256 : Shape := ⟨2, ![256, 256]⟩
abbrev S50000 : Shape := ⟨1, ![50000]⟩
abbrev S1x300000 : Shape := ⟨2, ![1, 300000]⟩
abbrev S300000 : Shape := ⟨1, ![300000]⟩
abbrev S350000 : Shape := ⟨1, ![350000]⟩
abbrev S_ : Shape := ⟨0, ![]⟩
abbrev S350000x1 : Shape := ⟨2, ![350000, 1]⟩
abbrev S50000x256 : Shape := ⟨2, ![50000, 256]⟩
abbrev S1x256 : Shape := ⟨2, ![1, 256]⟩
abbrev S350000x256 : Shape := ⟨2, ![350000, 256]⟩

abbrev nBuf : Space → Nat
  | .hbm => 120
  | .vmem => 0
  | .smem => 0
  | _ => 0

abbrev bufTy : (tb : Table) → Fin (tcTables nBuf tb) → BufTy
  | .hbm, ⟨0, _⟩ => ⟨S50000x11, .f32⟩
  | .hbm, ⟨1, _⟩ => ⟨S2x300000, .i32⟩
  | .hbm, ⟨2, _⟩ => ⟨S11x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S50000, .i32⟩
  | .hbm, ⟨9, _⟩ => ⟨S1x300000, .i32⟩
  | .hbm, ⟨10, _⟩ => ⟨S300000, .i32⟩
  | .hbm, ⟨11, _⟩ => ⟨S350000, .i32⟩
  | .hbm, ⟨12, _⟩ => ⟨S1x300000, .i32⟩
  | .hbm, ⟨13, _⟩ => ⟨S300000, .i32⟩
  | .hbm, ⟨14, _⟩ => ⟨S350000, .i32⟩
  | .hbm, ⟨15, _⟩ => ⟨S_, .f32⟩
  | .hbm, ⟨16, _⟩ => ⟨S350000, .f32⟩
  | .hbm, ⟨17, _⟩ => ⟨S_, .f32⟩
  | .hbm, ⟨18, _⟩ => ⟨S50000, .f32⟩
  | .hbm, ⟨19, _⟩ => ⟨S350000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S50000x256, .f32⟩
  | .hbm, ⟨33, _⟩ => ⟨S1x256, .f32⟩
  | .hbm, ⟨34, _⟩ => ⟨S50000x256, .f32⟩
  | .hbm, ⟨35, _⟩ => ⟨S50000x256, .f32⟩
  | .hbm, ⟨36, _⟩ => ⟨S_, .f32⟩
  | .hbm, ⟨37, _⟩ => ⟨S50000x256, .f32⟩
  | .hbm, ⟨38, _⟩ => ⟨S50000x256, .f32⟩
  | .hbm, ⟨39, _⟩ => ⟨S_, .i32⟩
  | .hbm, ⟨40, _⟩ => ⟨S350000, .i32⟩
  | .hbm, ⟨41, _⟩ => ⟨S350000, .i1⟩
  | .hbm, ⟨42, _⟩ => ⟨S_, .i32⟩
  | .hbm, ⟨43, _⟩ => ⟨S350000, .i32⟩
  | .hbm, ⟨44, _⟩ => ⟨S350000, .i32⟩
  | .hbm, ⟨45, _⟩ => ⟨S350000, .i32⟩
  | .hbm, ⟨46, _⟩ => ⟨S350000x1, .i32⟩
  | .hbm, ⟨47, _⟩ => ⟨S350000, .f32⟩
  | .hbm, ⟨48, _⟩ => ⟨S_, .i32⟩
  | .hbm, ⟨49, _⟩ => ⟨S350000, .i32⟩
  | .hbm, ⟨50, _⟩ => ⟨S350000, .i1⟩
  | .hbm, ⟨51, _⟩ => ⟨S_, .i32⟩
  | .hbm, ⟨52, _⟩ => ⟨S350000, .i32⟩
  | .hbm, ⟨53, _⟩ => ⟨S350000, .i32⟩
  | .hbm, ⟨54, _⟩ => ⟨S350000, .i32⟩
  | .hbm, ⟨55, _⟩ => ⟨S350000x1, .i32⟩
  | .hbm, ⟨56, _⟩ => ⟨S350000, .f32⟩
  | .hbm, ⟨57, _⟩ => ⟨S350000, .f32⟩
  | .hbm, ⟨58, _⟩ => ⟨S50000x256, .f32⟩
  | .hbm, ⟨59, _⟩ => ⟨S_, .i32⟩
  | .hbm, ⟨60, _⟩ => ⟨S350000, .i32⟩
  | .hbm, ⟨61, _⟩ => ⟨S350000, .i1⟩
  | .hbm, ⟨62, _⟩ => ⟨S_, .i32⟩
  | .hbm, ⟨63, _⟩ => ⟨S350000, .i32⟩
  | .hbm, ⟨64, _⟩ => ⟨S350000, .i32⟩
  | .hbm, ⟨65, _⟩ => ⟨S350000, .i32⟩
  | .hbm, ⟨66, _⟩ => ⟨S350000x1, .i32⟩
  | .hbm, ⟨67, _⟩ => ⟨S350000x256, .f32⟩
  | .hbm, ⟨68, _⟩ => ⟨S350000x1, .f32⟩
  | .hbm, ⟨69, _⟩ => ⟨S350000x256, .f32⟩
  | .hbm, ⟨70, _⟩ => ⟨S350000x256, .f32⟩
  | .hbm, ⟨71, _⟩ => ⟨S_, .f32⟩
  | .hbm, ⟨72, _⟩ => ⟨S50000x256, .f32⟩
  | .hbm, ⟨73, _⟩ => ⟨S350000x1, .i32⟩
  | .hbm, ⟨74, _⟩ => ⟨S50000x256, .f32⟩
  | .hbm, ⟨75, _⟩ => ⟨S1x256, .f32⟩
  | .hbm, ⟨76, _⟩ => ⟨S50000x256, .f32⟩
  | .hbm, ⟨77, _⟩ => ⟨S50000x256, .f32⟩
  | .hbm, ⟨78, _⟩ => ⟨S_, .f32⟩
  | .hbm, ⟨79, _⟩ => ⟨S50000x256, .f32⟩
  | .hbm, ⟨80, _⟩ => ⟨S50000x256, .f32⟩
  | .hbm, ⟨81, _⟩ => ⟨S_, .i32⟩
  | .hbm, ⟨82, _⟩ => ⟨S350000, .i32⟩
  | .hbm, ⟨83, _⟩ => ⟨S350000, .i1⟩
  | .hbm, ⟨84, _⟩ => ⟨S_, .i32⟩
  | .hbm, ⟨85, _⟩ => ⟨S350000, .i32⟩
  | .hbm, ⟨86, _⟩ => ⟨S350000, .i32⟩
  | .hbm, ⟨87, _⟩ => ⟨S350000, .i32⟩
  | .hbm, ⟨88, _⟩ => ⟨S350000x1, .i32⟩
  | .hbm, ⟨89, _⟩ => ⟨S350000, .f32⟩
  | .hbm, ⟨90, _⟩ => ⟨S_, .i32⟩
  | .hbm, ⟨91, _⟩ => ⟨S350000, .i32⟩
  | .hbm, ⟨92, _⟩ => ⟨S350000, .i1⟩
  | .hbm, ⟨93, _⟩ => ⟨S_, .i32⟩
  | .hbm, ⟨94, _⟩ => ⟨S350000, .i32⟩
  | .hbm, ⟨95, _⟩ => ⟨S350000, .i32⟩
  | .hbm, ⟨96, _⟩ => ⟨S350000, .i32⟩
  | .hbm, ⟨97, _⟩ => ⟨S350000x1, .i32⟩
  | .hbm, ⟨98, _⟩ => ⟨S350000, .f32⟩
  | .hbm, ⟨99, _⟩ => ⟨S350000, .f32⟩
  | .hbm, ⟨100, _⟩ => ⟨S50000x256, .f32⟩
  | .hbm, ⟨101, _⟩ => ⟨S_, .i32⟩
  | .hbm, ⟨102, _⟩ => ⟨S350000, .i32⟩
  | .hbm, ⟨103, _⟩ => ⟨S350000, .i1⟩
  | .hbm, ⟨104, _⟩ => ⟨S_, .i32⟩
  | .hbm, ⟨105, _⟩ => ⟨S350000, .i32⟩
  | .hbm, ⟨106, _⟩ => ⟨S350000, .i32⟩
  | .hbm, ⟨107, _⟩ => ⟨S350000, .i32⟩
  | .hbm, ⟨108, _⟩ => ⟨S350000x1, .i32⟩
  | .hbm, ⟨109, _⟩ => ⟨S350000x256, .f32⟩
  | .hbm, ⟨110, _⟩ => ⟨S350000x1, .f32⟩
  | .hbm, ⟨111, _⟩ => ⟨S350000x256, .f32⟩
  | .hbm, ⟨112, _⟩ => ⟨S350000x256, .f32⟩
  | .hbm, ⟨113, _⟩ => ⟨S_, .f32⟩
  | .hbm, ⟨114, _⟩ => ⟨S50000x256, .f32⟩
  | .hbm, ⟨115, _⟩ => ⟨S350000x1, .i32⟩
  | .hbm, ⟨116, _⟩ => ⟨S50000x256, .f32⟩
  | .hbm, ⟨117, _⟩ => ⟨S1x256, .f32⟩
  | .hbm, ⟨118, _⟩ => ⟨S50000x256, .f32⟩
  | .hbm, ⟨119, _⟩ => ⟨S50000x256, .f32⟩
  | _, _ => ⟨S50000x11, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_call1_cst : Ref sig .tc := ⟨.hbm, 36, rfl⟩
abbrev main_call1_v0 : Ref sig .tc := ⟨.hbm, 37, rfl⟩
abbrev main_v21 : Ref sig .tc := ⟨.hbm, 38, rfl⟩
abbrev main_c : Ref sig .tc := ⟨.hbm, 39, rfl⟩
abbrev main_v22 : Ref sig .tc := ⟨.hbm, 40, rfl⟩
abbrev main_v23 : Ref sig .tc := ⟨.hbm, 41, rfl⟩
abbrev main_c_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_5 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_c_7 : Ref sig .tc := ⟨.hbm, 59, rfl⟩
abbrev main_v38 : Ref sig .tc := ⟨.hbm, 60, rfl⟩
abbrev main_v39 : Ref sig .tc := ⟨.hbm, 61, rfl⟩
abbrev main_c_8 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_9 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_call2_cst : Ref sig .tc := ⟨.hbm, 78, rfl⟩
abbrev main_call2_v0 : Ref sig .tc := ⟨.hbm, 79, rfl⟩
abbrev main_v54 : Ref sig .tc := ⟨.hbm, 80, rfl⟩
abbrev main_c_10 : Ref sig .tc := ⟨.hbm, 81, rfl⟩
abbrev main_v55 : Ref sig .tc := ⟨.hbm, 82, rfl⟩
abbrev main_v56 : Ref sig .tc := ⟨.hbm, 83, rfl⟩
abbrev main_c_11 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_c_12 : Ref sig .tc := ⟨.hbm, 90, rfl⟩
abbrev main_v62 : Ref sig .tc := ⟨.hbm, 91, rfl⟩
abbrev main_v63 : Ref sig .tc := ⟨.hbm, 92, rfl⟩
abbrev main_c_13 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_c_14 : Ref sig .tc := ⟨.hbm, 101, rfl⟩
abbrev main_v71 : Ref sig .tc := ⟨.hbm, 102, rfl⟩
abbrev main_v72 : Ref sig .tc := ⟨.hbm, 103, rfl⟩
abbrev main_c_15 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_cst_16 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩

abbrev nD : Nat := 1
abbrev τ : Topo := Topo.v7x

variable {F : FTy → Type} [FloatOps F]

class Facts₀ : Prop where
  slices_S2x300000_S1x300000_0_0 : S2x300000.Slices ![0, 0] S1x300000
  shapeCasts_S1x300000_S300000 : S1x300000.ShapeCasts S300000
  concatenates_S300000_S50000_S350000_d0 : Shape.Concatenates [S300000, S50000] S350000 0
  slices_S2x300000_S1x300000_1_0 : S2x300000.Slices ![1, 0] S1x300000
  bcast_S_S350000 : S_.BroadcastsInDim S350000 (![] : Fin 0 → Fin S350000.rank)
  bcast_S_S50000 : S_.BroadcastsInDim S50000 (![] : Fin 0 → Fin S50000.rank)
  bcast_S350000_S350000x1_0 : S350000.BroadcastsInDim S350000x1 (![0] : Fin 1 → Fin S350000x1.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S350000x1_S350000x256_0_1 : S350000x1.BroadcastsInDim S350000x256 (![0, 1] : Fin 2 → Fin S350000x256.rank)
  scatter_S50000_S350000x1_S350000_n_0_0_1_wf : ScatterDims.WF S50000 S350000x1 S350000 [] [0] [0] 1
  dot_S50000x11_S11x256_S50000x256_1_0_0_1_n_n_wf : DotDims.WF S50000x11 S11x256 S50000x256 [1] [0] [0] [1] [] []
  gather_S50000_S350000x1_S350000_n_0_n_n_0_1_1_wf : GatherDims.WF S50000 S350000x1 S350000 [] [0] [] [0] [] 1 ![1]
  dot_S50000x256_S256x256_S50000x256_1_0_0_1_n_n_wf : DotDims.WF S50000x256 S256x256 S50000x256 [1] [0] [0] [1] [] []
  gather_S50000x256_S350000x1_S350000x256_1_0_n_n_0_1_1256_wf : GatherDims.WF S50000x256 S350000x1 S350000x256 [1] [0] [] [0] [] 1 ![1, 256]
  scatter_S50000x256_S350000x1_S350000x256_1_0_0_1_wf : ScatterDims.WF S50000x256 S350000x1 S350000x256 [1] [0] [0] 1

variable [Facts₀]

def scatter_S50000_S350000x1_S350000_n_0_0_1 : ScatterDims S50000 S350000x1 S350000 where
  updateWindowDims := []
  insertedWindowDims := [0]
  scatterDimsToOperandDims := [0]
  indexVectorDim := 1
  wf := scatter_S50000_S350000x1_S350000_n_0_0_1_wf
def dot_S50000x11_S11x256_S50000x256_1_0_0_1_n_n : DotDims S50000x11 S11x256 S50000x256 where
  lhsContracting := [1]
  rhsContracting := [0]
  lhsNonContracting := [0]
  rhsNonContracting := [1]
  lhsBatch := []
  rhsBatch := []
  wf := dot_S50000x11_S11x256_S50000x256_1_0_0_1_n_n_wf
def gather_S50000_S350000x1_S350000_n_0_n_n_0_1_1 : GatherDims S50000 S350000x1 S350000 where
  offsetDims := []
  collapsedSliceDims := [0]
  operandBatchingDims := []
  startIndicesBatchingDims := []
  startIndexMap := [0]
  indexVectorDim := 1
  sliceSizes := ![1]
  wf := gather_S50000_S350000x1_S350000_n_0_n_n_0_1_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S350000x1_S350000x256_1_0_n_n_0_1_1256 : GatherDims S50000x256 S350000x1 S350000x256 where
  offsetDims := [1]
  collapsedSliceDims := [0]
  operandBatchingDims := []
  startIndicesBatchingDims := []
  startIndexMap := [0]
  indexVectorDim := 1
  sliceSizes := ![1, 256]
  wf := gather_S50000x256_S350000x1_S350000x256_1_0_n_n_0_1_1256_wf
def scatter_S50000x256_S350000x1_S350000x256_1_0_0_1 : ScatterDims S50000x256 S350000x1 S350000x256 where
  updateWindowDims := [1]
  insertedWindowDims := [0]
  scatterDimsToOperandDims := [0]
  indexVectorDim := 1
  wf := scatter_S50000x256_S350000x1_S350000x256_1_0_0_1_wf

class Facts : Prop extends Facts₀ where

variable [Facts]
-- ==== Proof.KernelRun.lean ====
/-
  The kernel's program, run: every weakly fair execution of @main terminates, nothing faulting, with the result
  buffer holding the last value of the fold of buffer contents through @main's segments (host stretches and the three
  pipelined regions), and the argument arrays as launched. The fold's last value at the result buffer is what the
  value lemmas then read back to the arguments.
-/
import proofs.«111571_j37434934952474_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with the result named: after @main the result buffer holds the contents fold's last value `W9` there, and
    every argument array is as launched. -/
theorem run_result : θ_run defs (onTc (τ := τ) (main (F := F))) ⟨m, fun _ => 0, ρ⟩ (fun r => ∀ c : Dev nD,
      r.2.mem ((c.tc : Thread nD τ).loc main_v83) = W9 m ρ c (Proc.devRef .tc main_v83)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v83 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c)⟩)

end Cert.KernelIdeal.KRun

end
-- ==== Proof.Spec.lean ====
/-
  What both programs compute, as one function of the eight argument arrays.

  A two-layer graph convolution over N = 50000 nodes and E = 300000 edges. The edge table's two rows are the edges'
  sources and targets; every node is given a self loop, so each endpoint list is a row of the table followed by
  0, 1, …, N-1 (350000 entries). The degree of a node counts the entries of the target list equal to it, and
  dinv is 1/sqrt(max(deg, ε)) where the degree is positive and 0 elsewhere. For a node matrix hw, a layer's aggregate is

      agg(hw)[n, :] = Σ_{edges j with target j = n}  hw[source j, :] · dinv[source j] · dinv[target j]   +   bias,

  written with the host's gather (rows of hw at the sources, negative indices wrapped by N) and accumulating scatter
  (into the zero matrix at the targets). The network is

      h  = max(x · W_embed + b_embed, 0)
      h1 = max(agg(h · W1) + b1, 0)
      out =     agg(h1 · W2) + b2 .

  Every operation here is the host's own (the reference program's lines); the three matrix products are the only
  places where the kernel's program differs, computing them row block by row block.
-/
import proofs.«111571_j37434934952474_1_alg».proof.Proof.Gen.ReferenceIdeal

noncomputable section

namespace Cert.Gcn

open Idealize.ShloMosaic Cert.ReferenceIdeal Cert.ReferenceIdeal.Gen

variable {F : FTy → Type} [FloatOps F]

/-- The edges' sources with the self loops appended: row 0 of the edge table, then 0 … N-1. -/
def srcOf (e : (⟨S2x300000, .i32⟩ : BufTy).Contents (Elt F)) : (⟨S350000, .i32⟩ : BufTy).Contents (Elt F) :=
  concatenate S350000 0 [⟨S300000, (shapeCast _ (extractStridedSlice S1x300000 ![0, 0] e slices_S2x300000_S1x300000_0_0) shapeCasts_S1x300000_S300000)⟩, ⟨S50000, (iotaInDim S50000 32 0)⟩] concatenates_S300000_S50000_S350000_d0

/-- The edges' targets with the self loops appended: row 1 of the edge table, then 0 … N-1. -/
def dstOf (e : (⟨S2x300000, .i32⟩ : BufTy).Contents (Elt F)) : (⟨S350000, .i32⟩ : BufTy).Contents (Elt F) :=
  concatenate S350000 0 [⟨S300000, (shapeCast _ (extractStridedSlice S1x300000 ![1, 0] e slices_S2x300000_S1x300000_1_0) shapeCasts_S1x300000_S300000)⟩, ⟨S50000, (iotaInDim S50000 32 0)⟩] concatenates_S300000_S50000_S350000_d0

/-- An endpoint list as a column of gather indices: an entry below 0 is taken N higher. -/
def wrapCol (s : (⟨S350000, .i32⟩ : BufTy).Contents (Elt F)) : (⟨S350000x1, .i32⟩ : BufTy).Contents (Elt F) :=
  broadcastInDim S350000x1 ![0] bcast_S350000_S350000x1_0 (select (cmpi .slt s (broadcastInDim S350000 ![] bcast_S_S350000 (constantI S_ 32 0#32))) (addi s (broadcastInDim S350000 ![] bcast_S_S350000 (constantI S_ 32 50000#32))) s)

/-- A node's degree: the number of entries of the target list equal to it (ones accumulated into zeros). -/
def degOf (d : (⟨S350000, .i32⟩ : BufTy).Contents (Elt F)) : (⟨S50000, .f32⟩ : BufTy).Contents (Elt F) :=
  Host.scatterAdd scatter_S50000_S350000x1_S350000_n_0_0_1 (broadcastInDim S50000 ![] bcast_S_S50000 (constant S_ .f32 0x00000000#32)) (broadcastInDim S350000x1 ![0] bcast_S350000_S350000x1_0 d) (broadcastInDim S350000 ![] bcast_S_S350000 (constant S_ .f32 0x3F800000#32))

/-- 1/sqrt(max(deg, ε)) where the degree is positive, 0 elsewhere. -/
def dinvOf (d : (⟨S350000, .i32⟩ : BufTy).Contents (Elt F)) : (⟨S50000, .f32⟩ : BufTy).Contents (Elt F) :=
  select (cmpf .ogt (degOf d) (broadcastInDim S50000 ![] bcast_S_S50000 (constant S_ .f32 0x00000000#32))) (Host.rsqrt (maximumf (degOf d) (broadcastInDim S50000 ![] bcast_S_S50000 (constant S_ .f32 0x2B8CBCCC#32)))) (broadcastInDim S50000 ![] bcast_S_S50000 (id (constant S_ .f32 0x00000000#32)))

/-- An edge's weight: the node weight `dinv` at its source times `dinv` at its target. -/
def normOf (s d : (⟨S350000, .i32⟩ : BufTy).Contents (Elt F)) (dinv : (⟨S50000, .f32⟩ : BufTy).Contents (Elt F)) :
    (⟨S350000, .f32⟩ : BufTy).Contents (Elt F) :=
  mulf (Host.gather gather_S50000_S350000x1_S350000_n_0_n_n_0_1_1 dinv (wrapCol s)) (Host.gather gather_S50000_S350000x1_S350000_n_0_n_n_0_1_1 dinv (wrapCol d))

/-- A layer's aggregate of the node matrix `hw`: the rows at the edges' sources, weighted, summed into the rows at the
    edges' targets, plus the bias row. -/
def aggOf (hw : (⟨S50000x256, .f32⟩ : BufTy).Contents (Elt F)) (s d : (⟨S350000, .i32⟩ : BufTy).Contents (Elt F))
    (dinv : (⟨S50000, .f32⟩ : BufTy).Contents (Elt F)) (b : (⟨S256, .f32⟩ : BufTy).Contents (Elt F)) : (⟨S50000x256, .f32⟩ : BufTy).Contents (Elt F) :=
  addf (Host.scatterAdd scatter_S50000x256_S350000x1_S350000x256_1_0_0_1 (broadcastInDim S50000x256 ![] bcast_S_S50000x256 (constant S_ .f32 0x00000000#32)) (broadcastInDim S350000x1 ![0] bcast_S350000_S350000x1_0 d) (mulf (Host.gather gather_S50000x256_S350000x1_S350000x256_1_0_n_n_0_1_1256 hw (wrapCol s)) (broadcastInDim S350000x256 ![0, 1] bcast_S350000x1_S350000x256_0_1 (broadcastInDim S350000x1 ![0] bcast_S350000_S350000x1_0 (normOf s d dinv))))) (broadcastInDim S50000x256 ![0, 1] bcast_S1x256_S50000x256_0_1 (broadcastInDim S1x256 ![1] bcast_S256_S1x256_1 b))

/-- max(·, 0), entry by entry. -/
def reluOf (a : (⟨S50000x256, .f32⟩ : BufTy).Contents (Elt F)) : (⟨S50000x256, .f32⟩ : BufTy).Contents (Elt F) :=
  maximumf a (broadcastInDim S50000x256 ![] bcast_S_S50000x256 (constant S_ .f32 0x00000000#32))

/-- The embedding: max(x · W_embed + b_embed, 0). -/
def embedOf (x : (⟨S50000x11, .f32⟩ : BufTy).Contents (Elt F)) (w : (⟨S11x256, .f32⟩ : BufTy).Contents (Elt F))
    (b : (⟨S256, .f32⟩ : BufTy).Contents (Elt F)) : (⟨S50000x256, .f32⟩ : BufTy).Contents (Elt F) :=
  reluOf (addf (Host.dotGeneral dot_S50000x11_S11x256_S50000x256_1_0_0_1_n_n none x w) (broadcastInDim S50000x256 ![0, 1] bcast_S1x256_S50000x256_0_1 (broadcastInDim S1x256 ![1] bcast_S256_S1x256_1 b)))

/-- A layer's dense part: h · W. -/
def prodOf (h : (⟨S50000x256, .f32⟩ : BufTy).Contents (Elt F)) (w : (⟨S256x256, .f32⟩ : BufTy).Contents (Elt F)) :
    (⟨S50000x256, .f32⟩ : BufTy).Contents (Elt F) :=
  Host.dotGeneral dot_S50000x256_S256x256_S50000x256_1_0_0_1_n_n none h w

/-- The first layer's activations. -/
def hiddenOf (x : (⟨S50000x11, .f32⟩ : BufTy).Contents (Elt F)) (e : (⟨S2x300000, .i32⟩ : BufTy).Contents (Elt F))
    (we : (⟨S11x256, .f32⟩ : BufTy).Contents (Elt F)) (be : (⟨S256, .f32⟩ : BufTy).Contents (Elt F))
    (w1 : (⟨S256x256, .f32⟩ : BufTy).Contents (Elt F)) (b1 : (⟨S256, .f32⟩ : BufTy).Contents (Elt F)) :
    (⟨S50000x256, .f32⟩ : BufTy).Contents (Elt F) :=
  reluOf (aggOf (prodOf (embedOf x we be) w1) (srcOf e) (dstOf e) (dinvOf (dstOf e)) b1)

/-- The network's output. -/
def outOf (x : (⟨S50000x11, .f32⟩ : BufTy).Contents (Elt F)) (e : (⟨S2x300000, .i32⟩ : BufTy).Contents (Elt F))
    (we : (⟨S11x256, .f32⟩ : BufTy).Contents (Elt F)) (be : (⟨S256, .f32⟩ : BufTy).Contents (Elt F))
    (w1 : (⟨S256x256, .f32⟩ : BufTy).Contents (Elt F)) (b1 : (⟨S256, .f32⟩ : BufTy).Contents (Elt F))
    (w2 : (⟨S256x256, .f32⟩ : BufTy).Contents (Elt F)) (b2 : (⟨S256, .f32⟩ : BufTy).Contents (Elt F)) :
    (⟨S50000x256, .f32⟩ : BufTy).Contents (Elt F) :=
  aggOf (prodOf (hiddenOf x e we be w1 b1) w2) (srcOf e) (dstOf e) (dinvOf (dstOf e)) b2

end Cert.Gcn

end
-- ==== Proof.LibMatmulPlain.lean ====
/-
  A plain matrix product read at an index, over the extended reals.

  For the dimension numbers of an M×K by K×N product (contract the left operand's axis 1 with the right
  operand's axis 0, no batch axes), the product accumulated into the zero matrix has, at row `p` and column `q`,
  the entry  Σ_{k < K} lhs(p, k) · rhs(k, q):  the contraction index of the dimension numbers is its one coordinate,
  the left index keeps the row and takes the contraction coordinate as its column, and the right index takes the
  contraction coordinate as its row and keeps the column. Generic in M, K, N and in the operands' formats.
-/
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat}

/-- The left index keeps the output's row. -/
theorem plain_lhs_row (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The left index's column is the contraction coordinate. -/
theorem plain_lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- The right index's row is the contraction coordinate. -/
theorem plain_rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- The right index keeps the output's column. -/
theorem plain_rhs_col (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- THE PRODUCT AT AN ENTRY: a matrix product with plain dimension numbers, accumulated into the zero matrix, is at
    `(p, q)` the sum over the contracted axis of the operands' products. The dimension numbers are passed as any record
    equal to `DotDims.plain M K N` (a printed record with the same six lists is, by `rfl`). -/
theorem matmul_plain_zero_apply {φ₁ φ₂ : FTy} (D : DotDims ⟨2, ![M, K]⟩ ⟨2, ![K, N]⟩ ⟨2, ![M, N]⟩)
    (hD : D = DotDims.plain M K N) (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row _ _
      | ⟨1, _⟩ => exact (plain_lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_row _ _).trans hk
      | ⟨1, _⟩ => exact plain_rhs_col _ _)
  rw [el, er]

end Cert.LibMatmulPlain

end
-- ==== Proof.LibDotGeneralPlain.lean ====
/-
  The host's matrix product read at an index, over the extended reals, and the product as one function.

  `matProd x w` is the M×N matrix whose entry (p, q) is  Σ_{k < K} x(p, k) · w(k, q).  For the dimension numbers of a
  plain M×K by K×N product, the host's `dot_general` (which accumulates onto zero) is `matProd` of its operands, entry
  by entry; together with the same reading of a kernel's matrix product into the zero accumulator
  (LibMatmulPlain) this is what lets a product computed row block by row block be compared with one whole product.
  Generic in M, K, N and in the operands' formats.
-/
import proofs.«111571_j37434934952474_1_alg».proof.Proof.LibMatmulPlain

noncomputable section

open scoped BigOperators

namespace Cert.LibDotGeneralPlain

open Idealize.ShloMosaic Idealize.ShloMosaic.ValueIdx Cert.LibMatmulPlain

variable {M K N : Nat}

/-- The M×K by K×N matrix product over the extended reals: entry (p, q) is the sum over k of x(p, k) · w(k, q). -/
def matProd (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

theorem matProd_apply (x : (⟨2, ![M, K]⟩ : Shape).Idx → EReal) (w : (⟨2, ![K, N]⟩ : Shape).Idx → EReal) (p : Fin M) (q : Fin N) :
    matProd x w (ix2 p q) = ∑ k : Fin K, x (ix2 p k) * w (ix2 k q) := rfl

/-- THE HOST'S PRODUCT AT AN ENTRY: `dot_general` with plain dimension numbers is at `(p, q)` the sum over the
    contracted axis of the operands' products, whatever the precision and the schedule key. -/
theorem dotGeneral_plain_apply {φ₁ φ₂ : FTy} (D : DotDims ⟨2, ![M, K]⟩ ⟨2, ![K, N]⟩ ⟨2, ![M, N]⟩)
    (hD : D = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral D prec sched lhs rhs (ix2 p q) = ∑ k : Fin K, lhs (ix2 p k) * rhs (ix2 k q) := by
  subst hD
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row _ _
      | ⟨1, _⟩ => exact (plain_lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_row _ _).trans hk
      | ⟨1, _⟩ => exact plain_rhs_col _ _)
  rw [el, er]

/-- The host's whole product is `matProd` of its operands. -/
theorem dotGeneral_plain_eq {φ₁ φ₂ : FTy} (D : DotDims ⟨2, ![M, K]⟩ ⟨2, ![K, N]⟩ ⟨2, ![M, N]⟩)
    (hD : D = DotDims.plain M K N) (prec : Option ContractPrecision) (sched : HostSchedule)
    (lhs : FVec Ideal ⟨2, ![M, K]⟩ φ₁) (rhs : FVec Ideal ⟨2, ![K, N]⟩ φ₂) :
    FloatOps.dotGeneral D prec sched lhs rhs = matProd lhs rhs := by
  funext i
  obtain ⟨p, q, rfl⟩ : ∃ (p : Fin M) (q : Fin N), i = ix2 p q := ⟨i 0, i 1, eq_ix2 i⟩
  rw [dotGeneral_plain_apply D hD, matProd_apply]

end Cert.LibDotGeneralPlain

end
-- ==== Proof.Embed.lean ====
/-
  The embedding layer, computed row block by row block, is max(x · W_embed + b_embed, 0) of the whole arrays.

  The region walks ten grid points; at point t its body loads rows 5000·t … 5000·t+4999 of x (window 0), the whole
  11×256 weight matrix (window 1) and the bias as a 1×256 row (window 2), multiplies into a zero accumulator, adds the
  bias row to every row, takes the maximum with 0 and stores the 5000×256 block of the output (window 3) at the same rows.
  Over the extended reals entry (p, q) of the block is max(Σ_k x[5000·t+p, k]·W[k, q] + b[q], 0): entry (5000·t+p, q)
  of the host's embedding of the whole arrays. The ten blocks tile the output.
-/
import proofs.«111571_j37434934952474_1_alg».proof.Proof.Gen.KernelIdeal.Frame
import proofs.«111571_j37434934952474_1_alg».proof.Proof.Spec
import proofs.«111571_j37434934952474_1_alg».proof.Proof.LibDotGeneralPlain
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Embed

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The host's embedding at an entry: the row of x against the column of W, plus the bias entry, against 0. -/
theorem embed_apply (x : (⟨2, ![50000, 11]⟩ : Shape).Idx → EReal) (w : (⟨2, ![11, 256]⟩ : Shape).Idx → EReal)
    (b : (⟨1, ![256]⟩ : Shape).Idx → EReal) (r : Fin 50000) (q : Fin 256) :
    Cert.Gcn.embedOf (F := Ideal) x w b (ix2 r q)
      = max ((∑ k : Fin 11, x (ix2 r k) * w (ix2 k q)) + b (ix1 q)) (Ideal.ofBits .f32 0x00000000#32) := by
  have h1 := Cert.LibDotGeneralPlain.dotGeneral_plain_apply (M := 50000) (K := 11) (N := 256) (φ₁ := .f32) (φ₂ := .f32)
    Cert.ReferenceIdeal.dot_S50000x11_S11x256_S50000x256_1_0_0_1_n_n rfl none .single x w r q
  have h2 : broadcastInDim Cert.ReferenceIdeal.S50000x256 ![0, 1] Cert.ReferenceIdeal.Gen.facts₀.bcast_S1x256_S50000x256_0_1
      (broadcastInDim Cert.ReferenceIdeal.S1x256 ![1] Cert.ReferenceIdeal.Gen.facts₀.bcast_S256_S1x256_1 b) (ix2 r q) = b (ix1 q) := by
    rw [broadcastInDim_apply _ _ _ (ix2 r q) (ix2 (0 : Fin 1) q) (by intro a; match a with | ⟨0, _⟩ => rfl | ⟨1, _⟩ => rfl)]
    exact broadcastInDim_apply _ _ _ (ix2 (0 : Fin 1) q) (ix1 q) (by intro a; match a with | ⟨0, _⟩ => rfl)
  unfold Cert.Gcn.embedOf Cert.Gcn.reluOf
  exact congrArg₂ max (congrArg₂ (· + ·) h1 h2) rfl

/-- The body's stored value at an entry of the block. -/
theorem pay_apply (x0 : Vec Ideal S5000x11 .f32) (x1 : Vec Ideal S11x256 .f32) (x2 : Vec Ideal S1x256 .f32)
    (p : Fin 5000) (q : Fin 256) :
    k0_pay1 x0 x1 x2 (ix2 p q)
      = max ((∑ k : Fin 11, x0 (ix2 p k) * x1 (ix2 k q)) + x2 (ix2 (0 : Fin 1) q)) (Ideal.ofBits .f32 0x00000000#32) := by
  have h1 : matmul dot_S5000x11_S11x256_S5000x256_1_0_0_1_n_n none (truncf .bf16 x0 bitsLt_bf16_f32) (truncf .bf16 x1 bitsLt_bf16_f32)
      (constant (F := Ideal) S5000x256 .f32 0x00000000#32) (ix2 p q) = ∑ k : Fin 11, x0 (ix2 p k) * x1 (ix2 k q) := by
    refine (Cert.LibMatmulPlain.matmul_plain_zero_apply (M := 5000) (K := 11) (N := 256)
      dot_S5000x11_S11x256_S5000x256_1_0_0_1_n_n rfl none _ _ p q).trans ?_
    exact Finset.sum_congr rfl fun k _ => by rw [truncf_apply, truncf_apply]
  have h2 : broadcastTo S5000x256 (shapeCast S1x256 x2 shapeCasts_S1x256_S1x256) broadcasts_S1x256_S5000x256 (ix2 p q)
      = x2 (ix2 (0 : Fin 1) q) := by
    rw [shapeCast_self]; exact broadcastTo_1b_ab_apply x2 _ p q
  unfold k0_pay1
  exact congrArg₂ max (congrArg₂ (· + ·) h1 h2) rfl

/-- The block's entry against the host's embedding of the whole arrays, for loaded rows that are rows `o + p` of `x`,
    a loaded matrix that is `w` and a loaded row that is the bias `b` laid as 1×256. -/
theorem block_entry (x : (⟨2, ![50000, 11]⟩ : Shape).Idx → EReal) (w : (⟨2, ![11, 256]⟩ : Shape).Idx → EReal)
    (b : (⟨1, ![256]⟩ : Shape).Idx → EReal)
    (x0 : Vec Ideal S5000x11 .f32) (x1 : Vec Ideal S11x256 .f32) (x2 : Vec Ideal S1x256 .f32) (o : Nat) (p : Fin 5000) (q : Fin 256)
    (hr : o + p.val < 50000)
    (hx0 : ∀ k : Fin 11, x0 (ix2 p k) = x (ix2 ⟨o + p.val, hr⟩ k)) (hx1 : x1 = w)
    (hx2 : x2 (ix2 (0 : Fin 1) q) = b (ix1 q)) :
    k0_pay1 x0 x1 x2 (ix2 p q) = Cert.Gcn.embedOf (F := Ideal) x w b (ix2 ⟨o + p.val, hr⟩ q) := by
  rw [pay_apply, embed_apply, hx1, hx2]
  exact congrArg (fun s => max (s + b (ix1 q)) (Ideal.ofBits .f32 0x00000000#32))
    (Finset.sum_congr rfl fun k _ => by rw [hx0 k])

variable (V : (c : Dev nD) → (b : Ref sig .tc) → Buf (Elt Ideal) ((c : Thread nD τ).loc b))

theorem zeros2 : (![0, 0] : Fin 2 → Nat) = fun _ => 0 := funext fun a => by fin_cases a <;> rfl

/-- The printed index maps over the grid: the row windows sit at block row t, the others at the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The weight window's block is the whole weight matrix as the region finds it. -/
theorem weight_block (c : Dev nD) (t : Fin cfg0.N) : iblk0 V c 1 t = V c main_arg2 := by
  obtain ⟨-, -, e2, e3, -, -, -, -⟩ := idx_facts t
  funext y
  show V c main_arg2 (((cfg0.win 1).blk t).view.emb y) = V c main_arg2 y
  refine congrArg (V c main_arg2) (funext fun a => Fin.ext ?_)
  match a with
  | ⟨0, _⟩ => show win0_1.index t (0 : Fin 2) * 11 + 1 * (y 0).val = (y 0).val; omega
  | ⟨1, _⟩ => show win0_1.index t (1 : Fin 2) * 256 + 1 * (y 1).val = (y 1).val; omega

/-- The bias window's block is the whole bias row as the region finds it. -/
theorem bias_block (c : Dev nD) (t : Fin cfg0.N) : iblk0 V c 2 t = V c main_v17 := by
  obtain ⟨-, -, -, -, e4, e5, -, -⟩ := idx_facts t
  funext y
  show V c main_v17 (((cfg0.win 2).blk t).view.emb y) = V c main_v17 y
  refine congrArg (V c main_v17) (funext fun a => Fin.ext ?_)
  match a with
  | ⟨0, _⟩ => show win0_2.index t (0 : Fin 2) * 1 + 1 * (y 0).val = (y 0).val; omega
  | ⟨1, _⟩ => show win0_2.index t (1 : Fin 2) * 256 + 1 * (y 1).val = (y 1).val; omega

/-- The row window's block at point t holds rows 5000·t + p of x as the region finds it. -/
theorem rows_block (c : Dev nD) (t : Fin cfg0.N) (p : Fin 5000) (k : Fin 11) (hr : t.val * 5000 + p.val < 50000) :
    iblk0 V c 0 t (ix2 p k) = V c main_arg0 (ix2 ⟨t.val * 5000 + p.val, hr⟩ k) := by
  obtain ⟨e0, e1, -, -, -, -, -, -⟩ := idx_facts t
  show V c main_arg0 (((cfg0.win 0).blk t).view.emb (ix2 p k)) = V c main_arg0 (ix2 ⟨t.val * 5000 + p.val, hr⟩ k)
  refine congrArg (V c main_arg0) (funext fun a => Fin.ext ?_)
  match a with
  | ⟨0, _⟩ => show win0_0.index t (0 : Fin 2) * 5000 + 1 * p.val = t.val * 5000 + p.val; omega
  | ⟨1, _⟩ => show win0_0.index t (1 : Fin 2) * 11 + 1 * k.val = k.val; omega

/-- What point t writes back is block t of the host's embedding of the whole arrays, when the bias row the region
    finds is the bias vector laid as 1×256. -/
theorem flushed_eq (c : Dev nD) (be : (⟨1, ![256]⟩ : Shape).Idx → EReal)
    (hb : V c main_v17 = shapeCast S1x256 be shapeCasts_S256_S1x256) (t : Fin cfg0.N) :
    (dat0 V c).flushed 3 t
      = ((cfg0.win 3).blk t).view.read (Elt Ideal) (Cert.Gcn.embedOf (F := Ideal) (V c main_arg0) (V c main_arg2) be) := by
  show (cfg0.win 3).cut (grid0.coords t) ((dat0 V c).after 3 t) = _
  rw [after0_3]
  unfold out0_3
  rw [View.canon_unit_zero zeros2]
  simp only [View.ld_unit_zero (S := S5000x11) zeros2, View.ld_unit_zero (S := S11x256) zeros2,
    View.ld_unit_zero (S := S1x256) zeros2]
  obtain ⟨-, -, -, -, -, -, e6, e7⟩ := idx_facts t
  have hN : cfg0.N = 10 := N_0
  have ht : t.val < 10 := hN ▸ t.isLt
  funext j
  obtain ⟨p, q, rfl⟩ : ∃ (p : Fin 5000) (q : Fin 256), j = ix2 p q := ⟨j 0, j 1, eq_ix2 j⟩
  have hr : t.val * 5000 + p.val < 50000 := by have := p.isLt; omega
  have hemb : ((cfg0.win 3).blk t).view.emb (ix2 p q) = ix2 (⟨t.val * 5000 + p.val, hr⟩ : Fin 50000) q := by
    funext a; apply Fin.ext
    match a with
    | ⟨0, _⟩ => show win0_3.index t (0 : Fin 2) * 5000 + 1 * p.val = t.val * 5000 + p.val; omega
    | ⟨1, _⟩ => show win0_3.index t (1 : Fin 2) * 256 + 1 * q.val = q.val; omega
  show k0_pay1 (iblk0 V c 0 t) (iblk0 V c 1 t) (iblk0 V c 2 t) (ix2 p q)
    = Cert.Gcn.embedOf (F := Ideal) (V c main_arg0) (V c main_arg2) be (((cfg0.win 3).blk t).view.emb (ix2 p q))
  rw [hemb]
  refine block_entry (V c main_arg0) (V c main_arg2) be (iblk0 V c 0 t) (iblk0 V c 1 t) (iblk0 V c 2 t) (t.val * 5000) p q hr
    (fun k => rows_block V c t p k hr) (weight_block V c t) ?_
  rw [bias_block V c t, hb]
  exact shapeCast_a_1a_apply be _ (0 : Fin 1) q

/-- An index of the output is in point t's block iff each coordinate is in the block's range on its axis. -/
theorem mem_blk (t : Fin cfg0.N) (i : S50000x256.Idx) :
    i ∈ ((cfg0.win 3).blk t).view.set ↔ ∀ a : Fin 2, win0_3.index t a * S5000x256.size a ≤ (i a).val ∧ (i a).val < win0_3.index t a * S5000x256.size a + S5000x256.size a := by
  show i ∈ ((View.whole main_v18).slice (win0_3.rect t)).set ↔ _
  rw [View.set_slice_whole, Rect.mem_set_unit]
  exact Iff.rfl

/-- Every row of the output is in the block of the point its number divided by 5000 names. -/
theorem cover (i : S50000x256.Idx) :
    ∃ t : Fin cfg0.N, (cfg0.win 3).flush t = true ∧ i ∈ ((cfg0.win 3).blk t).view.set := by
  have hi0 : (i 0).val < 50000 := (i 0).isLt
  have hi1 : (i 1).val < 256 := (i 1).isLt
  have hN : cfg0.N = 10 := N_0
  have hlt : (i 0).val / 5000 < cfg0.N := by rw [hN]; omega
  obtain ⟨-, -, -, -, -, -, e6, e7⟩ := idx_facts ⟨(i 0).val / 5000, hlt⟩
  have e6' : win0_3.index ⟨(i 0).val / 5000, hlt⟩ (0 : Fin 2) = (i 0).val / 5000 := e6
  refine ⟨⟨(i 0).val / 5000, hlt⟩, flush0_3 _, ?_⟩
  rw [mem_blk]
  intro a
  match a with
  | ⟨0, _⟩ =>
    show win0_3.index ⟨(i 0).val / 5000, hlt⟩ (0 : Fin 2) * 5000 ≤ (i 0).val
      ∧ (i 0).val < win0_3.index ⟨(i 0).val / 5000, hlt⟩ (0 : Fin 2) * 5000 + 5000
    omega
  | ⟨1, _⟩ =>
    show win0_3.index ⟨(i 0).val / 5000, hlt⟩ (1 : Fin 2) * 256 ≤ (i 1).val
      ∧ (i 1).val < win0_3.index ⟨(i 0).val / 5000, hlt⟩ (1 : Fin 2) * 256 + 256
    omega

/-- After the region the output array is the host's embedding of x, the weight matrix and the bias vector. -/
theorem final (c : Dev nD) (be : (⟨1, ![256]⟩ : Shape).Idx → EReal)
    (hb : V c main_v17 = shapeCast S1x256 be shapeCasts_S256_S1x256) :
    (dat0 V c).arrAt 3 cfg0.N = Cert.Gcn.embedOf (F := Ideal) (V c main_arg0) (V c main_arg2) be :=
  (dat0 V c).arrAt_eq_of_cover 3 _ (fun t _ => flushed_eq V c be hb t) cover

end Cert.KernelIdeal.Embed

end
-- ==== Proof.Dense1.lean ====
/-
  The first layer's dense part, computed row block by row block, is the whole product.

  The region walks ten grid points; at point t its body loads rows 5000·t … 5000·t+4999 of the node matrix
  (window 0) and the whole 256×256 weight matrix (window 1), multiplies them into a zero accumulator and stores the
  5000×256 block of the output (window 2) at the same rows. Over the extended reals the change of format before the product is
  the identity, so entry (p, q) of the block is Σ_k h[5000·t+p, k]·w[k, q], which is entry (5000·t+p, q) of the whole
  product h·w. The ten blocks tile the output, so after the region the output array is h·w — for any contents the
  region is entered with.
-/
import proofs.«111571_j37434934952474_1_alg».proof.Proof.Gen.KernelIdeal.Frame
import proofs.«111571_j37434934952474_1_alg».proof.Proof.Spec
import proofs.«111571_j37434934952474_1_alg».proof.Proof.LibDotGeneralPlain
import Idealize.ShloMosaic.Lib.Pipeline.Value
import Idealize.ShloMosaic.Lib.ValueIdx

set_option maxRecDepth 16384

noncomputable section

open scoped BigOperators

namespace Cert.KernelIdeal.Dense1

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The whole product at an entry: the sum over the contracted axis. -/
theorem prod_apply (h : (⟨2, ![50000, 256]⟩ : Shape).Idx → EReal) (w : (⟨2, ![256, 256]⟩ : Shape).Idx → EReal)
    (r : Fin 50000) (q : Fin 256) :
    Cert.Gcn.prodOf (F := Ideal) h w (ix2 r q) = ∑ k : Fin 256, h (ix2 r k) * w (ix2 k q) := by
  unfold Cert.Gcn.prodOf
  exact Cert.LibDotGeneralPlain.dotGeneral_plain_apply (M := 50000) (K := 256) (N := 256)
    Cert.ReferenceIdeal.dot_S50000x256_S256x256_S50000x256_1_0_0_1_n_n rfl none _ h w r q

/-- The body's stored value at an entry of the block: the product of the loaded rows with the loaded matrix. -/
theorem pay_apply (x0 : Vec Ideal S5000x256 .f32) (x1 : Vec Ideal S256x256 .f32) (p : Fin 5000) (q : Fin 256) :
    k1_pay1 x0 x1 (ix2 p q) = ∑ k : Fin 256, x0 (ix2 p k) * x1 (ix2 k q) := by
  unfold k1_pay1
  refine (Cert.LibMatmulPlain.matmul_plain_zero_apply (M := 5000) (K := 256) (N := 256)
    dot_S5000x256_S256x256_S5000x256_1_0_0_1_n_n rfl none _ _ p q).trans ?_
  refine Finset.sum_congr rfl fun k _ => ?_
  rw [truncf_apply, truncf_apply, shapeCast_self]

/-- The block's entry against the whole product's, for loaded rows that are rows `o + p` of `h` and a loaded matrix that
    is `w`. -/
theorem block_entry (h : (⟨2, ![50000, 256]⟩ : Shape).Idx → EReal) (w : (⟨2, ![256, 256]⟩ : Shape).Idx → EReal)
    (x0 : Vec Ideal S5000x256 .f32) (x1 : Vec Ideal S256x256 .f32) (o : Nat) (p : Fin 5000) (q : Fin 256)
    (hr : o + p.val < 50000)
    (hx0 : ∀ k : Fin 256, x0 (ix2 p k) = h (ix2 ⟨o + p.val, hr⟩ k)) (hx1 : x1 = w) :
    k1_pay1 x0 x1 (ix2 p q) = Cert.Gcn.prodOf (F := Ideal) h w (ix2 ⟨o + p.val, hr⟩ q) := by
  rw [pay_apply, prod_apply, hx1]
  exact Finset.sum_congr rfl fun k _ => by rw [hx0 k]

variable (V : (c : Dev nD) → (b : Ref sig .tc) → Buf (Elt Ideal) ((c : Thread nD τ).loc b))

theorem zeros2 : (![0, 0] : Fin 2 → Nat) = fun _ => 0 := funext fun a => by fin_cases a <;> rfl

/-- The printed index maps over the grid: the row windows sit at block row t, the weight window at the origin. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The weight window's block is the whole weight matrix as the region finds it. -/
theorem weight_block (c : Dev nD) (t : Fin cfg1.N) : iblk1 V c 1 t = V c main_arg4 := by
  obtain ⟨-, -, e2, e3, -, -⟩ := idx_facts t
  funext y
  show V c main_arg4 (((cfg1.win 1).blk t).view.emb y) = V c main_arg4 y
  refine congrArg (V c main_arg4) (funext fun a => Fin.ext ?_)
  match a with
  | ⟨0, _⟩ => show win1_1.index t (0 : Fin 2) * 256 + 1 * (y 0).val = (y 0).val; omega
  | ⟨1, _⟩ => show win1_1.index t (1 : Fin 2) * 256 + 1 * (y 1).val = (y 1).val; omega

/-- The row window's block at point t holds rows 5000·t + p of the node matrix as the region finds it. -/
theorem rows_block (c : Dev nD) (t : Fin cfg1.N) (p : Fin 5000) (k : Fin 256) (hr : t.val * 5000 + p.val < 50000) :
    iblk1 V c 0 t (ix2 p k) = V c main_v18 (ix2 ⟨t.val * 5000 + p.val, hr⟩ k) := by
  obtain ⟨e0, e1, -, -, -, -⟩ := idx_facts t
  show V c main_v18 (((cfg1.win 0).blk t).view.emb (ix2 p k)) = V c main_v18 (ix2 ⟨t.val * 5000 + p.val, hr⟩ k)
  refine congrArg (V c main_v18) (funext fun a => Fin.ext ?_)
  match a with
  | ⟨0, _⟩ => show win1_0.index t (0 : Fin 2) * 5000 + 1 * p.val = t.val * 5000 + p.val; omega
  | ⟨1, _⟩ => show win1_0.index t (1 : Fin 2) * 256 + 1 * k.val = k.val; omega

/-- What point t writes back is block t of the whole product. -/
theorem flushed_eq (c : Dev nD) (t : Fin cfg1.N) :
    (dat1 V c).flushed 2 t
      = ((cfg1.win 2).blk t).view.read (Elt Ideal) (Cert.Gcn.prodOf (F := Ideal) (V c main_v18) (V c main_arg4)) := by
  show (cfg1.win 2).cut (grid1.coords t) ((dat1 V c).after 2 t) = _
  rw [after1_2]
  unfold out1_2
  rw [View.canon_unit_zero zeros2]
  simp only [View.ld_unit_zero (S := S5000x256) zeros2, View.ld_unit_zero (S := S256x256) zeros2]
  obtain ⟨-, -, -, -, e4, e5⟩ := idx_facts t
  have hN : cfg1.N = 10 := N_1
  have ht : t.val < 10 := hN ▸ t.isLt
  funext j
  obtain ⟨p, q, rfl⟩ : ∃ (p : Fin 5000) (q : Fin 256), j = ix2 p q := ⟨j 0, j 1, eq_ix2 j⟩
  have hr : t.val * 5000 + p.val < 50000 := by have := p.isLt; omega
  have hemb : ((cfg1.win 2).blk t).view.emb (ix2 p q) = ix2 (⟨t.val * 5000 + p.val, hr⟩ : Fin 50000) q := by
    funext a; apply Fin.ext
    match a with
    | ⟨0, _⟩ => show win1_2.index t (0 : Fin 2) * 5000 + 1 * p.val = t.val * 5000 + p.val; omega
    | ⟨1, _⟩ => show win1_2.index t (1 : Fin 2) * 256 + 1 * q.val = q.val; omega
  show k1_pay1 (iblk1 V c 0 t) (iblk1 V c 1 t) (ix2 p q)
    = Cert.Gcn.prodOf (F := Ideal) (V c main_v18) (V c main_arg4) (((cfg1.win 2).blk t).view.emb (ix2 p q))
  rw [hemb]
  exact block_entry (V c main_v18) (V c main_arg4) (iblk1 V c 0 t) (iblk1 V c 1 t) (t.val * 5000) p q hr
    (fun k => rows_block V c t p k hr) (weight_block V c t)

/-- An index of the output is in point t's block iff each coordinate is in the block's range on its axis. -/
theorem mem_blk (t : Fin cfg1.N) (i : S50000x256.Idx) :
    i ∈ ((cfg1.win 2).blk t).view.set ↔ ∀ a : Fin 2, win1_2.index t a * S5000x256.size a ≤ (i a).val ∧ (i a).val < win1_2.index t a * S5000x256.size a + S5000x256.size a := by
  show i ∈ ((View.whole main_v19).slice (win1_2.rect t)).set ↔ _
  rw [View.set_slice_whole, Rect.mem_set_unit]
  exact Iff.rfl

/-- Every row of the output is in the block of the point its number divided by 5000 names. -/
theorem cover (i : S50000x256.Idx) :
    ∃ t : Fin cfg1.N, (cfg1.win 2).flush t = true ∧ i ∈ ((cfg1.win 2).blk t).view.set := by
  have hi0 : (i 0).val < 50000 := (i 0).isLt
  have hi1 : (i 1).val < 256 := (i 1).isLt
  have hN : cfg1.N = 10 := N_1
  have hlt : (i 0).val / 5000 < cfg1.N := by rw [hN]; omega
  obtain ⟨-, -, -, -, e4, e5⟩ := idx_facts ⟨(i 0).val / 5000, hlt⟩
  have e4' : win1_2.index ⟨(i 0).val / 5000, hlt⟩ (0 : Fin 2) = (i 0).val / 5000 := e4
  refine ⟨⟨(i 0).val / 5000, hlt⟩, flush1_2 _, ?_⟩
  rw [mem_blk]
  intro a
  match a with
  | ⟨0, _⟩ =>
    show win1_2.index ⟨(i 0).val / 5000, hlt⟩ (0 : Fin 2) * 5000 ≤ (i 0).val
      ∧ (i 0).val < win1_2.index ⟨(i 0).val / 5000, hlt⟩ (0 : Fin 2) * 5000 + 5000
    omega
  | ⟨1, _⟩ =>
    show win1_2.index ⟨(i 0).val / 5000, hlt⟩ (1 : Fin 2) * 256 ≤ (i 1).val
      ∧ (i 1).val < win1_2.index ⟨(i 0).val / 5000, hlt⟩ (1 : Fin 2) * 256 + 256
    omega

/-- After the region the output array is the whole product of the node matrix and the weight matrix the region was
    entered with. -/
theorem final (c : Dev nD) :
    (dat1 V c).arrAt 2 cfg1.N = Cert.Gcn.prodOf (F := Ideal) (V c main_v18) (V c main_arg4) :=
  (dat1 V c).arrAt_eq_of_cover 2 _ (fun t _ => flushed_eq V c t) cover

end Cert.KernelIdeal.Dense1

end
-- ==== Proof.Dense2.lean ====
/-
  The second layer's dense part, computed row block by row block, is the whole product.

  The region walks ten grid points; at point t its body loads rows 5000·t … 5000·t+4999 of the node matrix
  (window 0) and the whole 256×256 weight matrix (window 1), multiplies them into a zero accumulator and stores the
  5000×256 block of the output (window 2) at the same rows. Over the extended reals the change of format before the product is
  the identity, so entry (p, q) of the block is Σ_k h[5000·t+p, k]·w[k, q], which is entry (5000·t+p, q) of the whole
  product h·w. The ten blocks tile the output, so after the region the output array is h·w — for any contents the
  region is entered with.
-/
import proofs.«111571_j37434934952474_1_alg».proof.Proof.Gen.KernelIdeal.Frame
import proofs.«111571_j37434934952474_1_alg».proof.Proof.Spec
import proofs.«111571_j37434934952474_1_alg».proof.Proof.LibDotGeneralPlain
import Idealize.ShloMosaic.Lib.Pipeline.Value
import Idealize.ShloMosaic.Lib.ValueIdx

set_option maxRecDepth 16384

noncomputable section

open scoped BigOperators

namespace Cert.KernelIdeal.Dense2

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The whole product at an entry: the sum over the contracted axis. -/
theorem prod_apply (h : (⟨2, ![50000, 256]⟩ : Shape).Idx → EReal) (w : (⟨2, ![256, 256]⟩ : Shape).Idx → EReal)
    (r : Fin 50000) (q : Fin 256) :
    Cert.Gcn.prodOf (F := Ideal) h w (ix2 r q) = ∑ k : Fin 256, h (ix2 r k) * w (ix2 k q) := by
  unfold Cert.Gcn.prodOf
  exact Cert.LibDotGeneralPlain.dotGeneral_plain_apply (M := 50000) (K := 256) (N := 256)
    Cert.ReferenceIdeal.dot_S50000x256_S256x256_S50000x256_1_0_0_1_n_n rfl none _ h w r q

/-- The body's stored value at an entry of the block: the product of the loaded rows with the loaded matrix. -/
theorem pay_apply (x0 : Vec Ideal S5000x256 .f32) (x1 : Vec Ideal S256x256 .f32) (p : Fin 5000) (q : Fin 256) :
    k2_pay1 x0 x1 (ix2 p q) = ∑ k : Fin 256, x0 (ix2 p k) * x1 (ix2 k q) := by
  unfold k2_pay1
  refine (Cert.LibMatmulPlain.matmul_plain_zero_apply (M := 5000) (K := 256) (N := 256)
    dot_S5000x256_S256x256_S5000x256_1_0_0_1_n_n rfl none _ _ p q).trans ?_
  refine Finset.sum_congr rfl fun k _ => ?_
  rw [truncf_apply, truncf_apply, shapeCast_self]

/-- The block's entry against the whole product's, for loaded rows that are rows `o + p` of `h` and a loaded matrix that
    is `w`. -/
theorem block_entry (h : (⟨2, ![50000, 256]⟩ : Shape).Idx → EReal) (w : (⟨2, ![256, 256]⟩ : Shape).Idx → EReal)
    (x0 : Vec Ideal S5000x256 .f32) (x1 : Vec Ideal S256x256 .f32) (o : Nat) (p : Fin 5000) (q : Fin 256)
    (hr : o + p.val < 50000)
    (hx0 : ∀ k : Fin 256, x0 (ix2 p k) = h (ix2 ⟨o + p.val, hr⟩ k)) (hx1 : x1 = w) :
    k2_pay1 x0 x1 (ix2 p q) = Cert.Gcn.prodOf (F := Ideal) h w (ix2 ⟨o + p.val, hr⟩ q) := by
  rw [pay_apply, prod_apply, hx1]
  exact Finset.sum_congr rfl fun k _ => by rw [hx0 k]

variable (V : (c : Dev nD) → (b : Ref sig .tc) → Buf (Elt Ideal) ((c : Thread nD τ).loc b))

theorem zeros2 : (![0, 0] : Fin 2 → Nat) = fun _ => 0 := funext fun a => by fin_cases a <;> rfl

/-- The printed index maps over the grid: the row windows sit at block row t, the weight window at the origin. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The weight window's block is the whole weight matrix as the region finds it. -/
theorem weight_block (c : Dev nD) (t : Fin cfg2.N) : iblk2 V c 1 t = V c main_arg6 := by
  obtain ⟨-, -, e2, e3, -, -⟩ := idx_facts t
  funext y
  show V c main_arg6 (((cfg2.win 1).blk t).view.emb y) = V c main_arg6 y
  refine congrArg (V c main_arg6) (funext fun a => Fin.ext ?_)
  match a with
  | ⟨0, _⟩ => show win2_1.index t (0 : Fin 2) * 256 + 1 * (y 0).val = (y 0).val; omega
  | ⟨1, _⟩ => show win2_1.index t (1 : Fin 2) * 256 + 1 * (y 1).val = (y 1).val; omega

/-- The row window's block at point t holds rows 5000·t + p of the node matrix as the region finds it. -/
theorem rows_block (c : Dev nD) (t : Fin cfg2.N) (p : Fin 5000) (k : Fin 256) (hr : t.val * 5000 + p.val < 50000) :
    iblk2 V c 0 t (ix2 p k) = V c main_v51 (ix2 ⟨t.val * 5000 + p.val, hr⟩ k) := by
  obtain ⟨e0, e1, -, -, -, -⟩ := idx_facts t
  show V c main_v51 (((cfg2.win 0).blk t).view.emb (ix2 p k)) = V c main_v51 (ix2 ⟨t.val * 5000 + p.val, hr⟩ k)
  refine congrArg (V c main_v51) (funext fun a => Fin.ext ?_)
  match a with
  | ⟨0, _⟩ => show win2_0.index t (0 : Fin 2) * 5000 + 1 * p.val = t.val * 5000 + p.val; omega
  | ⟨1, _⟩ => show win2_0.index t (1 : Fin 2) * 256 + 1 * k.val = k.val; omega

/-- What point t writes back is block t of the whole product. -/
theorem flushed_eq (c : Dev nD) (t : Fin cfg2.N) :
    (dat2 V c).flushed 2 t
      = ((cfg2.win 2).blk t).view.read (Elt Ideal) (Cert.Gcn.prodOf (F := Ideal) (V c main_v51) (V c main_arg6)) := by
  show (cfg2.win 2).cut (grid2.coords t) ((dat2 V c).after 2 t) = _
  rw [after2_2]
  unfold out2_2
  rw [View.canon_unit_zero zeros2]
  simp only [View.ld_unit_zero (S := S5000x256) zeros2, View.ld_unit_zero (S := S256x256) zeros2]
  obtain ⟨-, -, -, -, e4, e5⟩ := idx_facts t
  have hN : cfg2.N = 10 := N_2
  have ht : t.val < 10 := hN ▸ t.isLt
  funext j
  obtain ⟨p, q, rfl⟩ : ∃ (p : Fin 5000) (q : Fin 256), j = ix2 p q := ⟨j 0, j 1, eq_ix2 j⟩
  have hr : t.val * 5000 + p.val < 50000 := by have := p.isLt; omega
  have hemb : ((cfg2.win 2).blk t).view.emb (ix2 p q) = ix2 (⟨t.val * 5000 + p.val, hr⟩ : Fin 50000) q := by
    funext a; apply Fin.ext
    match a with
    | ⟨0, _⟩ => show win2_2.index t (0 : Fin 2) * 5000 + 1 * p.val = t.val * 5000 + p.val; omega
    | ⟨1, _⟩ => show win2_2.index t (1 : Fin 2) * 256 + 1 * q.val = q.val; omega
  show k2_pay1 (iblk2 V c 0 t) (iblk2 V c 1 t) (ix2 p q)
    = Cert.Gcn.prodOf (F := Ideal) (V c main_v51) (V c main_arg6) (((cfg2.win 2).blk t).view.emb (ix2 p q))
  rw [hemb]
  exact block_entry (V c main_v51) (V c main_arg6) (iblk2 V c 0 t) (iblk2 V c 1 t) (t.val * 5000) p q hr
    (fun k => rows_block V c t p k hr) (weight_block V c t)

/-- An index of the output is in point t's block iff each coordinate is in the block's range on its axis. -/
theorem mem_blk (t : Fin cfg2.N) (i : S50000x256.Idx) :
    i ∈ ((cfg2.win 2).blk t).view.set ↔ ∀ a : Fin 2, win2_2.index t a * S5000x256.size a ≤ (i a).val ∧ (i a).val < win2_2.index t a * S5000x256.size a + S5000x256.size a := by
  show i ∈ ((View.whole main_v52).slice (win2_2.rect t)).set ↔ _
  rw [View.set_slice_whole, Rect.mem_set_unit]
  exact Iff.rfl

/-- Every row of the output is in the block of the point its number divided by 5000 names. -/
theorem cover (i : S50000x256.Idx) :
    ∃ t : Fin cfg2.N, (cfg2.win 2).flush t = true ∧ i ∈ ((cfg2.win 2).blk t).view.set := by
  have hi0 : (i 0).val < 50000 := (i 0).isLt
  have hi1 : (i 1).val < 256 := (i 1).isLt
  have hN : cfg2.N = 10 := N_2
  have hlt : (i 0).val / 5000 < cfg2.N := by rw [hN]; omega
  obtain ⟨-, -, -, -, e4, e5⟩ := idx_facts ⟨(i 0).val / 5000, hlt⟩
  have e4' : win2_2.index ⟨(i 0).val / 5000, hlt⟩ (0 : Fin 2) = (i 0).val / 5000 := e4
  refine ⟨⟨(i 0).val / 5000, hlt⟩, flush2_2 _, ?_⟩
  rw [mem_blk]
  intro a
  match a with
  | ⟨0, _⟩ =>
    show win2_2.index ⟨(i 0).val / 5000, hlt⟩ (0 : Fin 2) * 5000 ≤ (i 0).val
      ∧ (i 0).val < win2_2.index ⟨(i 0).val / 5000, hlt⟩ (0 : Fin 2) * 5000 + 5000
    omega
  | ⟨1, _⟩ =>
    show win2_2.index ⟨(i 0).val / 5000, hlt⟩ (1 : Fin 2) * 256 ≤ (i 1).val
      ∧ (i 1).val < win2_2.index ⟨(i 0).val / 5000, hlt⟩ (1 : Fin 2) * 256 + 256
    omega

/-- After the region the output array is the whole product of the node matrix and the weight matrix the region was
    entered with. -/
theorem final (c : Dev nD) :
    (dat2 V c).arrAt 2 cfg2.N = Cert.Gcn.prodOf (F := Ideal) (V c main_v51) (V c main_arg6) :=
  (dat2 V c).arrAt_eq_of_cover 2 _ (fun t _ => flushed_eq V c t) cover

end Cert.KernelIdeal.Dense2

end
-- ==== Proof.Fold.lean ====
/-
  The kernel's program computes the network function.

  @main's buffer contents are followed segment by segment from the launch memory: the host lines before the first
  region build the endpoint lists, the node weights dinv and the bias row; the first region leaves the embedding, the second
  its product with W1 (the regions' whole-array forms); the host lines between leave the first layer's activations, the third
  region their product with W2, and the last host lines the output. Every buffer a later segment reads is carried through
  the segments that do not write it. The result buffer's last contents are the network function of the argument arrays.
-/
import proofs.«111571_j37434934952474_1_alg».proof.Proof.Gen.KernelIdeal.Frame
import proofs.«111571_j37434934952474_1_alg».proof.Proof.Spec
import proofs.«111571_j37434934952474_1_alg».proof.Proof.Embed
import proofs.«111571_j37434934952474_1_alg».proof.Proof.Dense1
import proofs.«111571_j37434934952474_1_alg».proof.Proof.Dense2
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

/-- The operations' results rewritten one at a time, for the operands of a concatenation. -/
macro "results_by_rw" : tactic =>
  `(tactic| repeat (first
      | rw [nullary_result] | rw [unary_result] | rw [binary_result] | rw [reshape_result]
      | (rw [nullary_result_ne]; rotate_left; decide) | (rw [unary_result_ne]; rotate_left; decide)
      | (rw [binary_result_ne]; rotate_left; decide) | (rw [reshape_result_ne]; rotate_left; decide)))

variable (m : (ℓ : Loc nD τ sig) → Buf (Elt Ideal) ℓ) (ρ : Dev nD → PrngReg) (c : Dev nD)

/-! ## Before the first region -/

theorem W3_main_arg0 : W3 m ρ c (Proc.devRef .tc main_arg0) = (m ((c : Thread nD τ).loc main_arg0)) := by
  show after hostOps0_2 (after hostOps0_1 (after hostOps0 (W0 m ρ c))) (Proc.devRef .tc main_arg0) = _
  after_results_simp
theorem W3_main_arg2 : W3 m ρ c (Proc.devRef .tc main_arg2) = (m ((c : Thread nD τ).loc main_arg2)) := by
  show after hostOps0_2 (after hostOps0_1 (after hostOps0 (W0 m ρ c))) (Proc.devRef .tc main_arg2) = _
  after_results_simp
theorem W3_main_arg4 : W3 m ρ c (Proc.devRef .tc main_arg4) = (m ((c : Thread nD τ).loc main_arg4)) := by
  show after hostOps0_2 (after hostOps0_1 (after hostOps0 (W0 m ρ c))) (Proc.devRef .tc main_arg4) = _
  after_results_simp
theorem W3_main_arg5 : W3 m ρ c (Proc.devRef .tc main_arg5) = (m ((c : Thread nD τ).loc main_arg5)) := by
  show after hostOps0_2 (after hostOps0_1 (after hostOps0 (W0 m ρ c))) (Proc.devRef .tc main_arg5) = _
  after_results_simp
theorem W3_main_arg6 : W3 m ρ c (Proc.devRef .tc main_arg6) = (m ((c : Thread nD τ).loc main_arg6)) := by
  show after hostOps0_2 (after hostOps0_1 (after hostOps0 (W0 m ρ c))) (Proc.devRef .tc main_arg6) = _
  after_results_simp
theorem W3_main_arg7 : W3 m ρ c (Proc.devRef .tc main_arg7) = (m ((c : Thread nD τ).loc main_arg7)) := by
  show after hostOps0_2 (after hostOps0_1 (after hostOps0 (W0 m ρ c))) (Proc.devRef .tc main_arg7) = _
  after_results_simp
/-- The bias row the first region finds is the bias vector laid as 1×256. -/
theorem W3_main_v17 : W3 m ρ c (Proc.devRef .tc main_v17) = shapeCast S1x256 (m ((c : Thread nD τ).loc main_arg3)) shapeCasts_S256_S1x256 := by
  show after hostOps0_2 (after hostOps0_1 (after hostOps0 (W0 m ρ c))) (Proc.devRef .tc main_v17) = _
  after_results; rfl
/-- The sources list. -/
theorem W3_main_v3 : W3 m ρ c (Proc.devRef .tc main_v3) = (Cert.Gcn.srcOf (m ((c : Thread nD τ).loc main_arg1))) := by
  show after hostOps0_2 (after hostOps0_1 (after hostOps0 (W0 m ρ c))) (Proc.devRef .tc main_v3) = _
  after_results; rfl
/-- The targets list. -/
theorem W3_main_v6 : W3 m ρ c (Proc.devRef .tc main_v6) = (Cert.Gcn.dstOf (m ((c : Thread nD τ).loc main_arg1))) := by
  show after hostOps0_2 (after hostOps0_1 (after hostOps0 (W0 m ρ c))) (Proc.devRef .tc main_v6) = _
  after_results; rfl
/-- The three lines of the outlined selection: the result is the first operand where the mask is set and the splat of the
    third elsewhere, from any contents. -/
theorem where_lines (W : Valuation τ sig (Elt Ideal)) :
    after hostOps0_1 W (Proc.devRef .tc main_v16)
      = select (W (Proc.devRef .tc main_v12)) (W (Proc.devRef .tc main_v15))
          (broadcastInDim S50000 ![] bcast_S_S50000 (id (W (Proc.devRef .tc main_cst_3)))) := by
  after_results
  rfl

/-- Where the degree is positive. -/
theorem W1_main_v12 : W1 m ρ c (Proc.devRef .tc main_v12) = cmpf .ogt (Cert.Gcn.degOf (Cert.Gcn.dstOf (m ((c : Thread nD τ).loc main_arg1)))) (broadcastInDim S50000 ![] bcast_S_S50000 (constant S_ .f32 0x00000000#32)) := by
  show after hostOps0 (W0 m ρ c) (Proc.devRef .tc main_v12) = _
  after_results_simp
  results_by_rw
  rfl

/-- 1/sqrt of the degree kept above ε. -/
theorem W1_main_v15 : W1 m ρ c (Proc.devRef .tc main_v15)
    = Host.rsqrt (maximumf (Cert.Gcn.degOf (Cert.Gcn.dstOf (m ((c : Thread nD τ).loc main_arg1)))) (broadcastInDim S50000 ![] bcast_S_S50000 (constant S_ .f32 0x2B8CBCCC#32))) := by
  show after hostOps0 (W0 m ρ c) (Proc.devRef .tc main_v15) = _
  after_results_simp
  results_by_rw
  rfl

theorem W1_main_cst_3 : W1 m ρ c (Proc.devRef .tc main_cst_3) = constant (F := Ideal) S_ .f32 0x00000000#32 := by
  show after hostOps0 (W0 m ρ c) (Proc.devRef .tc main_cst_3) = _
  after_results_simp

/-- The node weights. -/
theorem W3_main_v16 : W3 m ρ c (Proc.devRef .tc main_v16) = (Cert.Gcn.dinvOf (Cert.Gcn.dstOf (m ((c : Thread nD τ).loc main_arg1)))) := by
  have e0 : W3 m ρ c (Proc.devRef .tc main_v16) = after hostOps0_1 (W1 m ρ c) (Proc.devRef .tc main_v16) := by
    show after hostOps0_2 (W2 m ρ c) (Proc.devRef .tc main_v16) = W2 m ρ c (Proc.devRef .tc main_v16)
    generalize W2 m ρ c = W
    after_results
  rw [e0, where_lines, W1_main_v12, W1_main_v15, W1_main_cst_3]
  rfl

/-! ## After the first region: the embedding -/

theorem W4_main_v18 : W4 m ρ c (Proc.devRef .tc main_v18) = (Cert.Gcn.embedOf (m ((c : Thread nD τ).loc main_arg0)) (m ((c : Thread nD τ).loc main_arg2)) (m ((c : Thread nD τ).loc main_arg3))) := by
  refine (W4_arr m ρ c 3).trans ((Cert.KernelIdeal.Embed.final (V3 m ρ) c (m ((c : Thread nD τ).loc main_arg3)) (W3_main_v17 m ρ c)).trans ?_)
  show Cert.Gcn.embedOf (W3 m ρ c (Proc.devRef .tc main_arg0)) (W3 m ρ c (Proc.devRef .tc main_arg2)) (m ((c : Thread nD τ).loc main_arg3)) = _
  rw [W3_main_arg0, W3_main_arg2]
theorem W4_main_v3 : W4 m ρ c (Proc.devRef .tc main_v3) = (Cert.Gcn.srcOf (m ((c : Thread nD τ).loc main_arg1))) :=
  (W4_of_ne m ρ c main_v3 (by decide)).trans (W3_main_v3 m ρ c)
theorem W4_main_v6 : W4 m ρ c (Proc.devRef .tc main_v6) = (Cert.Gcn.dstOf (m ((c : Thread nD τ).loc main_arg1))) :=
  (W4_of_ne m ρ c main_v6 (by decide)).trans (W3_main_v6 m ρ c)
theorem W4_main_v16 : W4 m ρ c (Proc.devRef .tc main_v16) = (Cert.Gcn.dinvOf (Cert.Gcn.dstOf (m ((c : Thread nD τ).loc main_arg1)))) :=
  (W4_of_ne m ρ c main_v16 (by decide)).trans (W3_main_v16 m ρ c)
theorem W4_main_arg4 : W4 m ρ c (Proc.devRef .tc main_arg4) = (m ((c : Thread nD τ).loc main_arg4)) :=
  (W4_of_ne m ρ c main_arg4 (by decide)).trans (W3_main_arg4 m ρ c)
theorem W4_main_arg5 : W4 m ρ c (Proc.devRef .tc main_arg5) = (m ((c : Thread nD τ).loc main_arg5)) :=
  (W4_of_ne m ρ c main_arg5 (by decide)).trans (W3_main_arg5 m ρ c)
theorem W4_main_arg6 : W4 m ρ c (Proc.devRef .tc main_arg6) = (m ((c : Thread nD τ).loc main_arg6)) :=
  (W4_of_ne m ρ c main_arg6 (by decide)).trans (W3_main_arg6 m ρ c)
theorem W4_main_arg7 : W4 m ρ c (Proc.devRef .tc main_arg7) = (m ((c : Thread nD τ).loc main_arg7)) :=
  (W4_of_ne m ρ c main_arg7 (by decide)).trans (W3_main_arg7 m ρ c)

/-! ## After the second region: the first layer's dense part -/

theorem W5_main_v19 : W5 m ρ c (Proc.devRef .tc main_v19) = (Cert.Gcn.prodOf (Cert.Gcn.embedOf (m ((c : Thread nD τ).loc main_arg0)) (m ((c : Thread nD τ).loc main_arg2)) (m ((c : Thread nD τ).loc main_arg3))) (m ((c : Thread nD τ).loc main_arg4))) := by
  refine (W5_arr m ρ c 2).trans ((Cert.KernelIdeal.Dense1.final (V4 m ρ) c).trans ?_)
  show Cert.Gcn.prodOf (W4 m ρ c (Proc.devRef .tc main_v18)) (W4 m ρ c (Proc.devRef .tc main_arg4)) = _
  rw [W4_main_v18, W4_main_arg4]
theorem W5_main_v3 : W5 m ρ c (Proc.devRef .tc main_v3) = (Cert.Gcn.srcOf (m ((c : Thread nD τ).loc main_arg1))) :=
  (W5_of_ne m ρ c main_v3 (by decide)).trans (W4_main_v3 m ρ c)
theorem W5_main_v6 : W5 m ρ c (Proc.devRef .tc main_v6) = (Cert.Gcn.dstOf (m ((c : Thread nD τ).loc main_arg1))) :=
  (W5_of_ne m ρ c main_v6 (by decide)).trans (W4_main_v6 m ρ c)
theorem W5_main_v16 : W5 m ρ c (Proc.devRef .tc main_v16) = (Cert.Gcn.dinvOf (Cert.Gcn.dstOf (m ((c : Thread nD τ).loc main_arg1)))) :=
  (W5_of_ne m ρ c main_v16 (by decide)).trans (W4_main_v16 m ρ c)
theorem W5_main_arg5 : W5 m ρ c (Proc.devRef .tc main_arg5) = (m ((c : Thread nD τ).loc main_arg5)) :=
  (W5_of_ne m ρ c main_arg5 (by decide)).trans (W4_main_arg5 m ρ c)
theorem W5_main_arg6 : W5 m ρ c (Proc.devRef .tc main_arg6) = (m ((c : Thread nD τ).loc main_arg6)) :=
  (W5_of_ne m ρ c main_arg6 (by decide)).trans (W4_main_arg6 m ρ c)
theorem W5_main_arg7 : W5 m ρ c (Proc.devRef .tc main_arg7) = (m ((c : Thread nD τ).loc main_arg7)) :=
  (W5_of_ne m ρ c main_arg7 (by decide)).trans (W4_main_arg7 m ρ c)

/-! ## Before the third region: the first layer's activations -/

/-- The three lines of the outlined maximum with 0, from any contents. -/
theorem relu_lines (W : Valuation τ sig (Elt Ideal)) :
    after hostOps2_1 W (Proc.devRef .tc main_v51)
      = (maximumf (F := Ideal) (W (Proc.devRef .tc main_v50))
          (broadcastInDim S50000x256 ![] bcast_S_S50000x256 (constant (F := Ideal) S_ .f32 0x00000000#32)) :
          (⟨S50000x256, .f32⟩ : BufTy).Contents (Elt Ideal)) := by
  after_results
  rfl

/-- The first layer's aggregate, from the contents the second region leaves. -/
theorem W6_main_v50 : W6 m ρ c (Proc.devRef .tc main_v50)
    = Cert.Gcn.aggOf (W5 m ρ c (Proc.devRef .tc main_v19)) (W5 m ρ c (Proc.devRef .tc main_v3)) (W5 m ρ c (Proc.devRef .tc main_v6))
        (W5 m ρ c (Proc.devRef .tc main_v16)) (W5 m ρ c (Proc.devRef .tc main_arg5)) := by
  show after hostOps2 (W5 m ρ c) (Proc.devRef .tc main_v50) = _
  after_results_simp
  rfl

theorem W7_main_v51 : W7 m ρ c (Proc.devRef .tc main_v51) = (Cert.Gcn.hiddenOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  show after hostOps2_1 (W6 m ρ c) (Proc.devRef .tc main_v51) = _
  rw [relu_lines, W6_main_v50, W5_main_v19, W5_main_v3, W5_main_v6, W5_main_v16, W5_main_arg5]
  rfl
theorem W7_main_v3 : W7 m ρ c (Proc.devRef .tc main_v3) = (Cert.Gcn.srcOf (m ((c : Thread nD τ).loc main_arg1))) := by
  refine Eq.trans ?_ (W5_main_v3 m ρ c)
  show after hostOps2_1 (after hostOps2 (W5 m ρ c)) (Proc.devRef .tc main_v3) = _
  after_results_simp
theorem W7_main_v6 : W7 m ρ c (Proc.devRef .tc main_v6) = (Cert.Gcn.dstOf (m ((c : Thread nD τ).loc main_arg1))) := by
  refine Eq.trans ?_ (W5_main_v6 m ρ c)
  show after hostOps2_1 (after hostOps2 (W5 m ρ c)) (Proc.devRef .tc main_v6) = _
  after_results_simp
theorem W7_main_v16 : W7 m ρ c (Proc.devRef .tc main_v16) = (Cert.Gcn.dinvOf (Cert.Gcn.dstOf (m ((c : Thread nD τ).loc main_arg1)))) := by
  refine Eq.trans ?_ (W5_main_v16 m ρ c)
  show after hostOps2_1 (after hostOps2 (W5 m ρ c)) (Proc.devRef .tc main_v16) = _
  after_results_simp
theorem W7_main_arg6 : W7 m ρ c (Proc.devRef .tc main_arg6) = (m ((c : Thread nD τ).loc main_arg6)) := by
  refine Eq.trans ?_ (W5_main_arg6 m ρ c)
  show after hostOps2_1 (after hostOps2 (W5 m ρ c)) (Proc.devRef .tc main_arg6) = _
  after_results_simp
theorem W7_main_arg7 : W7 m ρ c (Proc.devRef .tc main_arg7) = (m ((c : Thread nD τ).loc main_arg7)) := by
  refine Eq.trans ?_ (W5_main_arg7 m ρ c)
  show after hostOps2_1 (after hostOps2 (W5 m ρ c)) (Proc.devRef .tc main_arg7) = _
  after_results_simp

/-! ## After the third region: the second layer's dense part -/

theorem W8_main_v52 : W8 m ρ c (Proc.devRef .tc main_v52) = (Cert.Gcn.prodOf (Cert.Gcn.hiddenOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6))) := by
  refine (W8_arr m ρ c 2).trans ((Cert.KernelIdeal.Dense2.final (V7 m ρ) c).trans ?_)
  show Cert.Gcn.prodOf (W7 m ρ c (Proc.devRef .tc main_v51)) (W7 m ρ c (Proc.devRef .tc main_arg6)) = _
  rw [W7_main_v51, W7_main_arg6]
theorem W8_main_v3 : W8 m ρ c (Proc.devRef .tc main_v3) = (Cert.Gcn.srcOf (m ((c : Thread nD τ).loc main_arg1))) :=
  (W8_of_ne m ρ c main_v3 (by decide)).trans (W7_main_v3 m ρ c)
theorem W8_main_v6 : W8 m ρ c (Proc.devRef .tc main_v6) = (Cert.Gcn.dstOf (m ((c : Thread nD τ).loc main_arg1))) :=
  (W8_of_ne m ρ c main_v6 (by decide)).trans (W7_main_v6 m ρ c)
theorem W8_main_v16 : W8 m ρ c (Proc.devRef .tc main_v16) = (Cert.Gcn.dinvOf (Cert.Gcn.dstOf (m ((c : Thread nD τ).loc main_arg1)))) :=
  (W8_of_ne m ρ c main_v16 (by decide)).trans (W7_main_v16 m ρ c)
theorem W8_main_arg7 : W8 m ρ c (Proc.devRef .tc main_arg7) = (m ((c : Thread nD τ).loc main_arg7)) :=
  (W8_of_ne m ρ c main_arg7 (by decide)).trans (W7_main_arg7 m ρ c)

/-! ## The result -/

/-- The result buffer's last contents are the network function of the argument arrays. -/
theorem result_eq : W9 m ρ c (Proc.devRef .tc main_v83) = Cert.Gcn.outOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have e : W9 m ρ c (Proc.devRef .tc main_v83)
      = Cert.Gcn.aggOf (W8 m ρ c (Proc.devRef .tc main_v52)) (W8 m ρ c (Proc.devRef .tc main_v3)) (W8 m ρ c (Proc.devRef .tc main_v6))
          (W8 m ρ c (Proc.devRef .tc main_v16)) (W8 m ρ c (Proc.devRef .tc main_arg7)) := by
    show after hostOps3 (W8 m ρ c) (Proc.devRef .tc main_v83) = _
    after_results_simp
    rfl
  rw [e, W8_main_v52, W8_main_v3, W8_main_v6, W8_main_v16, W8_main_arg7]
  rfl

end Cert.KernelIdeal.Fold

end
-- ==== Proof.RefSide.lean ====
/-
  The reference program computes the network function: its run's result term, read back operation by operation, is
  the composition `Gcn.outOf` of the argument arrays, by unfolding the names.
-/
import proofs.«111571_j37434934952474_1_alg».proof.Proof.RefRunPatched
import proofs.«111571_j37434934952474_1_alg».proof.Proof.Spec

noncomputable section

namespace Cert.ReferenceIdeal.RefValue

open Idealize.ShloMosaic Idealize.ShloMosaic.TcCoe Idealize.SL.Sem Cert.ReferenceIdeal Cert.ReferenceIdeal.Gen

variable {F : FTy → Type} [FloatOps F]

set_option maxRecDepth 16384 in
/-- The result of the reference's run is the network function of the argument arrays. -/
theorem result_eq (m : (ℓ : Loc nD τ sig) → Buf (Elt F) ℓ) (c : Dev nD) :
    Cert.ReferenceIdeal.ValueP.res_main_v86 m c
      = Cert.Gcn.outOf (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  unfold Cert.ReferenceIdeal.ValueP.res_main_v86 Cert.Gcn.outOf Cert.Gcn.hiddenOf Cert.Gcn.aggOf Cert.Gcn.prodOf Cert.Gcn.embedOf
    Cert.Gcn.reluOf Cert.Gcn.normOf Cert.Gcn.dinvOf Cert.Gcn.degOf Cert.Gcn.wrapCol Cert.Gcn.srcOf Cert.Gcn.dstOf
  rfl

end Cert.ReferenceIdeal.RefValue

end
-- ==== Proof.lean ====
/-
  The certificate of a two-layer graph convolution network whose three dense products run as pipelined kernels.

  Both programs compute, over the extended reals, the same function of the eight argument arrays (Proof/Spec.lean,
  `Gcn.outOf`): the endpoint lists with self loops, the node weights 1/sqrt(deg), the embedding max(x·W_embed + b_embed, 0)
  and two rounds of "multiply by a weight matrix, gather the rows at the edges' sources, weight, sum into the rows at the
  edges' targets, add the bias". The reference computes the three matrix products with the host's product; the kernel's
  program computes each one in ten row blocks of 5000 rows, and a row block of a product is the product of the row
  block (Proof/Embed.lean, Dense1.lean, Dense2.lean), so the block-wise results tile the whole products. Everything
  else — the gathers, the accumulating scatters, the maxima — is the same host operation on both sides and is carried as it
  is (Proof/Fold.lean reads the kernel's program's buffers segment by segment; Proof/RefSide.lean reads the
  reference's result). No algebraic law beyond the definition of the product is used, so the finiteness of the inputs
  is never opened. The idealization rewrote nothing, so `preserves` holds trivially.
-/
import proofs.«111571_j37434934952474_1_alg».proof.Defs
import proofs.«111571_j37434934952474_1_alg».proof.Proof.Gen.Kernel
import proofs.«111571_j37434934952474_1_alg».proof.Proof.Gen.Kernel.Skeleton
import proofs.«111571_j37434934952474_1_alg».proof.Proof.Gen.Kernel.Launch
import proofs.«111571_j37434934952474_1_alg».proof.Proof.Gen.Kernel.Points
import proofs.«111571_j37434934952474_1_alg».proof.Proof.Gen.Kernel.Frame
import proofs.«111571_j37434934952474_1_alg».proof.Proof.Gen.KernelIdeal
import proofs.«111571_j37434934952474_1_alg».proof.Proof.Gen.KernelIdeal.Skeleton
import proofs.«111571_j37434934952474_1_alg».proof.Proof.Gen.KernelIdeal.Launch
import proofs.«111571_j37434934952474_1_alg».proof.Proof.Gen.KernelIdeal.Points
import proofs.«111571_j37434934952474_1_alg».proof.Proof.Gen.KernelIdeal.Frame
import proofs.«111571_j37434934952474_1_alg».proof.Proof.Gen.ReferenceIdeal
import proofs.«111571_j37434934952474_1_alg».proof.Proof.Gen.Pre_finite_inputs
import proofs.«111571_j37434934952474_1_alg».proof.Proof.KernelRun
import proofs.«111571_j37434934952474_1_alg».proof.Proof.Fold
import proofs.«111571_j37434934952474_1_alg».proof.Proof.RefSide
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end with the network function of the argument arrays in their result buffers; the arrays agree. -/
theorem algebraic : Cert.algebraic_KernelIdeal_ReferenceIdeal := by
  intro m ρ m' ρ' _ hagree
  refine ⟨fun c => Cert.Gcn.outOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Fold.result_eq m ρ c), (h c).2⟩)
      (Cert.KernelIdeal.KRun.run_result (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.RefValue.result_eq m' c, (hagree c).1, (hagree c).2.1, (hagree c).2.2.1, (hagree c).2.2.2.1,
      (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
